-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x64 : Shape := ⟨2, ![50000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S6x64 : Shape := ⟨2, ![6, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S6x64 : S_.BroadcastsInDim S6x64 (![] : Fin 0 → Fin S6x64.rank)
  reducesTo_S6x64_S_d0_1 : S6x64.ReducesTo [0, 1] S_

variable [Facts]

def fn_part4 {F : FTy → Type} [FloatOps F] (main_arg15 : FVec F S64 .f32) (main_arg16 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg12 : FVec F S64 .f32) (main_arg13 : FVec F S6x64 .f32) (main_arg14 : FVec F S64 .f32) (main_arg15 : FVec F S64 .f32) (main_arg16 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S6x64 .f32 := Host.absf main_arg13
  let main_cst_22 : FVec F S_ .f32 := constant S_ .f32 0x7F800000#32
  let main_v60 : FVec F S6x64 .f32 := broadcastInDim S6x64 ![] bcast_S_S6x64 main_cst_22
  let main_v61 : IVec S6x64 1 := cmpf .olt main_v59 main_v60
  let main_c_23 : IVec S_ 1 := constantI S_ 1 1#1
  let main_v62 : IVec S_ 1 := (fun x v => Host.reduce IntOp.andi x v reducesTo_S6x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_v63 main_v67

def fn_part2 {F : FTy → Type} [FloatOps F] (main_arg8 : FVec F S1 .f32) (main_arg9 : FVec F S64x64 .f32) (main_arg10 : FVec F S64 .f32) (main_arg11 : FVec F S64x64 .f32) (main_arg12 : FVec F S64 .f32) (main_arg13 : FVec F S6x64 .f32) (main_arg14 : FVec F S64 .f32) (main_arg15 : FVec F S64 .f32) (main_arg16 : FVec F S64 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_v48 main_v49 main_v50

def fn_part1 {F : FTy → Type} [FloatOps F] (main_arg5 : FVec F S64x64 .f32) (main_arg6 : FVec F S64x64 .f32) (main_arg7 : FVec F S64x1 .f32) (main_arg8 : FVec F S1 .f32) (main_arg9 : FVec F S64x64 .f32) (main_arg10 : FVec F S64 .f32) (main_arg11 : FVec F S64x64 .f32) (main_arg12 : FVec F S64 .f32) (main_arg13 : FVec F S6x64 .f32) (main_arg14 : FVec F S64 .f32) (main_arg15 : FVec F S64 .f32) (main_arg16 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : IVec S2x800000 32) (main_arg1 : FVec F S50000x64 .f32) (main_arg2 : FVec F S64x64 .f32) (main_arg3 : FVec F S64x64 .f32) (main_arg4 : FVec F S64 .f32) (main_arg5 : FVec F S64x64 .f32) (main_arg6 : FVec F S64x64 .f32) (main_arg7 : FVec F S64x1 .f32) (main_arg8 : FVec F S1 .f32) (main_arg9 : FVec F S64x64 .f32) (main_arg10 : FVec F S64 .f32) (main_arg11 : FVec F S64x64 .f32) (main_arg12 : FVec F S64 .f32) (main_arg13 : FVec F S6x64 .f32) (main_arg14 : FVec F S64 .f32) (main_arg15 : FVec F S64 .f32) (main_arg16 : FVec F S64 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S2x800000 : Shape := ⟨2, ![2, 800000]⟩
abbrev S50000x64 : Shape := ⟨2, ![50000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S6x64 : Shape := ⟨2, ![6, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x1 : Shape := ⟨2, ![1, 1]⟩
abbrev S1x64 : Shape := ⟨2, ![1, 64]⟩
abbrev S800000x3 : Shape := ⟨2, ![800000, 3]⟩
abbrev S4000x64 : Shape := ⟨2, ![4000, 64]⟩
abbrev S4000x3 : Shape := ⟨2, ![4000, 3]⟩
abbrev S4000 : Shape := ⟨1, ![4000]⟩
abbrev S4000x1 : Shape := ⟨2, ![4000, 1]⟩
abbrev S4000x6 : Shape := ⟨2, ![4000, 6]⟩
abbrev S50000 : Shape := ⟨1, ![50000]⟩
abbrev S5000x64 : Shape := ⟨2, ![5000, 64]⟩
abbrev S5000x6 : Shape := ⟨2, ![5000, 6]⟩
abbrev S5000 : Shape := ⟨1, ![5000]⟩
abbrev S5000x1 : Shape := ⟨2, ![5000, 1]⟩

abbrev nBuf : Space → Nat
  | .hbm => 135
  | .vmem => 33
  | .smem => 0
  | _ => 0

abbrev hbmTy0_0 (i : Nat) : BufTy := match i % 128 with
  | 0 => ⟨S2x800000, .i32⟩
  | 1 => ⟨S50000x64, .f32⟩
  | 2 => ⟨S64x64, .f32⟩
  | 3 => ⟨S64x64, .f32⟩
  | 4 => ⟨S64, .f32⟩
  | 5 => ⟨S64x64, .f32⟩
  | 6 => ⟨S64x64, .f32⟩
  | 7 => ⟨S64x1, .f32⟩
  | 8 => ⟨S1, .f32⟩
  | 9 => ⟨S64x64, .f32⟩
  | 10 => ⟨S64, .f32⟩
  | 11 => ⟨S64x64, .f32⟩
  | 12 => ⟨S64, .f32⟩
  | 13 => ⟨S6x64, .f32⟩
  | 14 => ⟨S64, .f32⟩
  | 15 => ⟨S64, .f32⟩
  | 16 => ⟨S64, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S1x1, .f32⟩
  | 40 => ⟨S1x64, .f32⟩
  | 41 => ⟨S800000x3, .f32⟩
  | 42 => ⟨S800000x1, .f32⟩
  | 43 => ⟨S800000, .f32⟩
  | 44 => ⟨S800000, .f32⟩
  | 45 => ⟨S_, .f32⟩
  | 46 => ⟨S50000, .f32⟩
  | 47 => ⟨S800000x1, .i32⟩
  | 48 => ⟨S50000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S_, .f32⟩
  | 59 => ⟨S800000, .f32⟩
  | 60 => ⟨S800000, .f32⟩
  | 61 => ⟨S800000, .f32⟩
  | 62 => ⟨S800000x1, .f32⟩
  | 63 => ⟨S800000, .f32⟩
  | 64 => ⟨S800000, .f32⟩
  | 65 => ⟨S_, .f32⟩
  | 66 => ⟨S50000, .f32⟩
  | 67 => ⟨S800000x1, .i32⟩
  | 68 => ⟨S50000, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000, .f32⟩
  | 78 => ⟨S_, .f32⟩
  | 79 => ⟨S800000, .f32⟩
  | 80 => ⟨S800000, .f32⟩
  | 81 => ⟨S800000, .f32⟩
  | 82 => ⟨S800000x1, .f32⟩
  | 83 => ⟨S800000, .f32⟩
  | 84 => ⟨S800000, .f32⟩
  | 85 => ⟨S800000, .f32⟩
  | 86 => ⟨S800000, .f32⟩
  | 87 => ⟨S_, .f32⟩
  | 88 => ⟨S50000, .f32⟩
  | 89 => ⟨S800000x1, .i32⟩
  | 90 => ⟨S50000, .f32⟩
  | 91 => ⟨S_, .f32⟩
  | 92 => ⟨S50000, .f32⟩
  | 93 => ⟨S50000, .f32⟩
  | 94 => ⟨S50000, .f32⟩
  | 95 => ⟨S50000, .f32⟩
  | 96 => ⟨S_, .f32⟩
  | 97 => ⟨S50000, .f32⟩
  | 98 => ⟨S50000, .f32⟩
  | 99 => ⟨S_, .f32⟩
  | 100 => ⟨S50000, .f32⟩
  | 101 => ⟨S50000, .f32⟩
  | 102 => ⟨S50000, .f32⟩
  | 103 => ⟨S50000, .f32⟩
  | 104 => ⟨S_, .f32⟩
  | 105 => ⟨S50000, .f32⟩
  | 106 => ⟨S50000, .f32⟩
  | 107 => ⟨S_, .f32⟩
  | 108 => ⟨S50000, .f32⟩
  | 109 => ⟨S50000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000, .f32⟩
  | 119 => ⟨S_, .f32⟩
  | 120 => ⟨S800000, .f32⟩
  | 121 => ⟨S800000, .f32⟩
  | 122 => ⟨S800000, .f32⟩
  | 123 => ⟨S800000x1, .f32⟩
  | 124 => ⟨S800000x64, .f32⟩
  | 125 => ⟨S_, .f32⟩
  | 126 => ⟨S50000x64, .f32⟩
  | 127 => ⟨S800000x1, .i32⟩
  | _ => ⟨S2x800000, .i32⟩

abbrev hbmTy0_1 (i : Nat) : BufTy := match i % 128 with
  | 0 => ⟨S50000x64, .f32⟩
  | 1 => ⟨S1x64, .f32⟩
  | 2 => ⟨S1x64, .f32⟩
  | 3 => ⟨S1x64, .f32⟩
  | 4 => ⟨S1x64, .f32⟩
  | 5 => ⟨S1x64, .f32⟩
  | 6 => ⟨S50000x64, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x1, .f32⟩
  | .local _ .vmem, ⟨8, _⟩ => ⟨S1x1, .f32⟩
  | .local _ .vmem, ⟨9, _⟩ => ⟨S4000x3, .f32⟩
  | .local _ .vmem, ⟨10, _⟩ => ⟨S4000x3, .f32⟩
  | .local _ .vmem, ⟨11, _⟩ => ⟨S4000x64, .f32⟩
  | .local _ .vmem, ⟨12, _⟩ => ⟨S4000x64, .f32⟩
  | .local _ .vmem, ⟨13, _⟩ => ⟨S4000x1, .f32⟩
  | .local _ .vmem, ⟨14, _⟩ => ⟨S4000x1, .f32⟩
  | .local _ .vmem, ⟨15, _⟩ => ⟨S64x64, .f32⟩
  | .local _ .vmem, ⟨16, _⟩ => ⟨S1x64, .f32⟩
  | .local _ .vmem, ⟨17, _⟩ => ⟨S4000x64, .f32⟩
  | .local _ .vmem, ⟨18, _⟩ => ⟨S4000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S64x64, .f32⟩
  | .local _ .vmem, ⟨24, _⟩ => ⟨S1x64, .f32⟩
  | .local _ .vmem, ⟨25, _⟩ => ⟨S64x64, .f32⟩
  | .local _ .vmem, ⟨26, _⟩ => ⟨S1x64, .f32⟩
  | .local _ .vmem, ⟨27, _⟩ => ⟨S6x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_7 : Ref sig .tc := ⟨.hbm, 69, rfl⟩
abbrev main_v43 : Ref sig .tc := ⟨.hbm, 70, rfl⟩
abbrev main_v44 : Ref sig .tc := ⟨.hbm, 71, rfl⟩
abbrev main_c_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_cst_15 : Ref sig .tc := ⟨.hbm, 107, rfl⟩
abbrev main_v73 : Ref sig .tc := ⟨.hbm, 108, rfl⟩
abbrev main_v74 : Ref sig .tc := ⟨.hbm, 109, rfl⟩
abbrev main_c_16 : Ref sig .tc := ⟨.hbm, 110, rfl⟩
abbrev main_v75 : Ref sig .tc := ⟨.hbm, 111, rfl⟩
abbrev main_v76 : Ref sig .tc := ⟨.hbm, 112, rfl⟩
abbrev main_c_17 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_18 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_19 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg10_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem10_1 : DmaSem sig := 32

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S6x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S1_S1x1 : S1.ShapeCasts S1x1
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S4000x64_S4000 : S4000x64.Reduces [1] S4000
  shapeCasts_S4000_S4000x1 : S4000.ShapeCasts S4000x1
  slices_S4000x64_o0_0_S4000x6 : S4000x64.Slices ![0, 0] S4000x6
  reduces_S4000x6_S4000 : S4000x6.Reduces [1] S4000
  broadcasts_S1x1_S4000x1 : S1x1.Broadcasts S4000x1
  concatenates_S4000x1_S4000x1_S4000x1_S4000x3_d1 : Shape.Concatenates [S4000x1, S4000x1, S4000x1] S4000x3 1
  inb_S4000x3_S4000x3_0_0 : ∀ a, (![0, 0] : Fin 2 → Nat) a + S4000x3.size a ≤ S4000x3.size a
  h_S4000x3 : 0 < S4000x3.numel
  slices_S800000x3_S800000x1_0_0 : S800000x3.Slices ![0, 0] S800000x1
  shapeCasts_S800000x1_S800000 : S800000x1.ShapeCasts S800000
  bcast_S_S50000 : S_.BroadcastsInDim S50000 (![] : Fin 0 → Fin S50000.rank)
  slices_S800000x3_S800000x1_0_1 : S800000x3.Slices ![0, 1] S800000x1
  slices_S800000x3_S800000x1_0_2 : S800000x3.Slices ![0, 2] S800000x1
  shapeCasts_S800000_S800000x1 : S800000.ShapeCasts S800000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  slices_S5000x64_o0_0_S5000x6 : S5000x64.Slices ![0, 0] S5000x6
  inb_S6x64_S6x64_0_0 : ∀ a, (![0, 0] : Fin 2 → Nat) a + S6x64.size a ≤ S6x64.size a
  h_S6x64 : 0 < S6x64.numel
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S50000x64_S800000x1_S800000x64_1_0_n_n_0_1_164_wf : GatherDims.WF S50000x64 S800000x1 S800000x64 [1] [0] [] [0] [] 1 ![1, 64]
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x6_S6x64_S5000x64_1_0_0_1_n_n_wf : DotDims.WF S5000x6 S6x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x3.size a ≤ S800000x3.size a
  hwx0_7 : ∀ i : grid0.Coords, EltTy.bits .f32 = 32 ∨ (Rect.block (s := S800000x3) S4000x3.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S800000x64.size a
  hwx1_0 : ∀ i : grid1.Coords, EltTy.bits .f32 = 32 ∨ (Rect.block (s := S800000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S800000x1.size a
  hwx1_1 : ∀ i : grid1.Coords, EltTy.bits .f32 = 32 ∨ (Rect.block (s := S800000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S800000x64.size a
  hwx1_4 : ∀ i : grid1.Coords, EltTy.bits .f32 = 32 ∨ (Rect.block (s := S800000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S6x64.size a ≤ S6x64.size a
  hwx2_6 : ∀ i : grid2.Coords, EltTy.bits .f32 = 32 ∨ (Rect.block (s := S6x64) S6x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x64.size a ≤ S50000x64.size a
  hwx2_10 : ∀ i : grid2.Coords, EltTy.bits .f32 = 32 ∨ (Rect.block (s := S50000x64) S5000x64.size (cc2_transform_10 i) (hinb2_10 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x6_S6x64_S5000x64_1_0_0_1_n_n : DotDims S5000x6 S6x64 S5000x64 where
  lhsContracting := [1]
  rhsContracting := [0]
  lhsNonContracting := [0]
  rhsNonContracting := [1]
  lhsBatch := []
  rhsBatch := []
  wf := dot_S5000x6_S6x64_S5000x64_1_0_0_1_n_n_wf

abbrev win0_0 : Pipeline.Window sig grid0 :=
  Pipeline.Window.ofSpec (Memref.whole main_v10) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S4000x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v10) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v85) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v86) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v89) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S6x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v92) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v93) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v94) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v95) S5000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S2x800000 : Shape := ⟨2, ![2, 800000]⟩
abbrev S50000x64 : Shape := ⟨2, ![50000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S6x64 : Shape := ⟨2, ![6, 64]⟩
abbrev S1x800000 : Shape := ⟨2, ![1, 800000]⟩
abbrev S800000 : Shape := ⟨1, ![800000]⟩
abbrev S50000x6 : Shape := ⟨2, ![50000, 6]⟩
abbrev S_ : Shape := ⟨0, ![]⟩
abbrev S800000x1 : Shape := ⟨2, ![800000, 1]⟩
abbrev S800000x64 : Shape := ⟨2, ![800000, 64]⟩
abbrev S800000x6 : Shape := ⟨2, ![800000, 6]⟩
abbrev S50000 : Shape := ⟨1, ![50000]⟩
abbrev S1x64 : Shape := ⟨2, ![1, 64]⟩
abbrev S50000x1 : Shape := ⟨2, ![50000, 1]⟩

abbrev nBuf : Space → Nat
  | .hbm => 211
  | .vmem => 0
  | .smem => 0
  | _ => 0

abbrev hbmTy0_0 (i : Nat) : BufTy := match i % 128 with
  | 0 => ⟨S2x800000, .i32⟩
  | 1 => ⟨S50000x64, .f32⟩
  | 2 => ⟨S64x64, .f32⟩
  | 3 => ⟨S64x64, .f32⟩
  | 4 => ⟨S64, .f32⟩
  | 5 => ⟨S64x64, .f32⟩
  | 6 => ⟨S64x64, .f32⟩
  | 7 => ⟨S64x1, .f32⟩
  | 8 => ⟨S1, .f32⟩
  | 9 => ⟨S64x64, .f32⟩
  | 10 => ⟨S64, .f32⟩
  | 11 => ⟨S64x64, .f32⟩
  | 12 => ⟨S64, .f32⟩
  | 13 => ⟨S6x64, .f32⟩
  | 14 => ⟨S64, .f32⟩
  | 15 => ⟨S64, .f32⟩
  | 16 => ⟨S64, .f32⟩
  | 17 => ⟨S1x800000, .i32⟩
  | 18 => ⟨S800000, .i32⟩
  | 19 => ⟨S1x800000, .i32⟩
  | 20 => ⟨S800000, .i32⟩
  | 21 => ⟨S50000x6, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S800000x64, .f32⟩
  | 41 => ⟨S800000x64, .f32⟩
  | 42 => ⟨S_, .f32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x6, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x6, .f32⟩
  | 62 => ⟨S800000x6, .f32⟩
  | 63 => ⟨S_, .f32⟩
  | 64 => ⟨S800000, .f32⟩
  | 65 => ⟨S800000, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000, .f32⟩
  | 80 => ⟨S_, .f32⟩
  | 81 => ⟨S800000, .f32⟩
  | 82 => ⟨S800000, .f32⟩
  | 83 => ⟨S800000, .f32⟩
  | 84 => ⟨S800000x64, .f32⟩
  | 85 => ⟨S800000x64, .f32⟩
  | 86 => ⟨S800000x64, .f32⟩
  | 87 => ⟨S_, .f32⟩
  | 88 => ⟨S800000, .f32⟩
  | 89 => ⟨S800000, .f32⟩
  | 90 => ⟨S_, .f32⟩
  | 91 => ⟨S50000, .f32⟩
  | 92 => ⟨S800000x1, .i32⟩
  | 93 => ⟨S50000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000, .f32⟩
  | 103 => ⟨S_, .f32⟩
  | 104 => ⟨S800000, .f32⟩
  | 105 => ⟨S800000, .f32⟩
  | 106 => ⟨S800000, .f32⟩
  | 107 => ⟨S800000x1, .f32⟩
  | 108 => ⟨S800000, .f32⟩
  | 109 => ⟨S_, .f32⟩
  | 110 => ⟨S800000, .f32⟩
  | 111 => ⟨S800000, .f32⟩
  | 112 => ⟨S800000, .f32⟩
  | 113 => ⟨S800000, .f32⟩
  | 114 => ⟨S800000, .f32⟩
  | 115 => ⟨S_, .f32⟩
  | 116 => ⟨S50000, .f32⟩
  | 117 => ⟨S800000x1, .i32⟩
  | 118 => ⟨S50000, .f32⟩
  | 119 => ⟨S_, .f32⟩
  | 120 => ⟨S50000, .f32⟩
  | 121 => ⟨S50000, .f32⟩
  | 122 => ⟨S50000, .f32⟩
  | 123 => ⟨S50000, .f32⟩
  | 124 => ⟨S_, .f32⟩
  | 125 => ⟨S50000, .f32⟩
  | 126 => ⟨S50000, .f32⟩
  | 127 => ⟨S_, .f32⟩
  | _ => ⟨S2x800000, .i32⟩

abbrev hbmTy0_1 (i : Nat) : BufTy := match i % 128 with
  | 0 => ⟨S50000, .f32⟩
  | 1 => ⟨S50000, .f32⟩
  | 2 => ⟨S50000, .f32⟩
  | 3 => ⟨S50000, .f32⟩
  | 4 => ⟨S_, .f32⟩
  | 5 => ⟨S50000, .f32⟩
  | 6 => ⟨S50000, .f32⟩
  | 7 => ⟨S_, .f32⟩
  | 8 => ⟨S50000, .f32⟩
  | 9 => ⟨S50000, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000, .f32⟩
  | 19 => ⟨S800000x1, .f32⟩
  | 20 => ⟨S800000x64, .f32⟩
  | 21 => ⟨S1x64, .f32⟩
  | 22 => ⟨S800000x64, .f32⟩
  | 23 => ⟨S800000x64, .f32⟩
  | 24 => ⟨S800000x64, .f32⟩
  | 25 => ⟨S800000x64, .f32⟩
  | 26 => ⟨S_, .f32⟩
  | 27 => ⟨S800000, .f32⟩
  | 28 => ⟨S800000, .f32⟩
  | 29 => ⟨S800000x1, .f32⟩
  | 30 => ⟨S800000x64, .f32⟩
  | 31 => ⟨S800000x64, .f32⟩
  | 32 => ⟨S_, .f32⟩
  | 33 => ⟨S50000x64, .f32⟩
  | 34 => ⟨S800000x1, .i32⟩
  | 35 => ⟨S50000x64, .f32⟩
  | 36 => ⟨S50000x64, .f32⟩
  | 37 => ⟨S1x64, .f32⟩
  | 38 => ⟨S50000x64, .f32⟩
  | 39 => ⟨S50000x64, .f32⟩
  | 40 => ⟨S50000x64, .f32⟩
  | 41 => ⟨S1x64, .f32⟩
  | 42 => ⟨S50000x64, .f32⟩
  | 43 => ⟨S50000x64, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S50000x64, .f32⟩
  | 54 => ⟨S_, .f32⟩
  | 55 => ⟨S50000, .f32⟩
  | 56 => ⟨S50000x1, .f32⟩
  | 57 => ⟨S_, .f32⟩
  | 58 => ⟨S50000x1, .f32⟩
  | 59 => ⟨S50000x1, .f32⟩
  | 60 => ⟨S50000x64, .f32⟩
  | 61 => ⟨S50000x64, .f32⟩
  | 62 => ⟨S50000x64, .f32⟩
  | 63 => ⟨S_, .f32⟩
  | 64 => ⟨S50000, .f32⟩
  | 65 => ⟨S50000x1, .f32⟩
  | 66 => ⟨S_, .f32⟩
  | 67 => ⟨S50000x1, .f32⟩
  | 68 => ⟨S50000x1, .f32⟩
  | 69 => ⟨S50000x64, .f32⟩
  | 70 => ⟨S50000x64, .f32⟩
  | 71 => ⟨S_, .f32⟩
  | 72 => ⟨S50000x1, .f32⟩
  | 73 => ⟨S50000x1, .f32⟩
  | 74 => ⟨S50000x1, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S1x64, .f32⟩
  | 81 => ⟨S50000x64, .f32⟩
  | 82 => ⟨S50000x64, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_c_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_11 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_cst_13 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_14 : Ref sig .tc := ⟨.hbm, 94, rfl⟩
abbrev main_v61 : Ref sig .tc := ⟨.hbm, 95, rfl⟩
abbrev main_v62 : Ref sig .tc := ⟨.hbm, 96, rfl⟩
abbrev main_c_15 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_16 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_18 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_19 : Ref sig .tc := ⟨.hbm, 124, rfl⟩
abbrev main_v86 : Ref sig .tc := ⟨.hbm, 125, rfl⟩
abbrev main_v87 : Ref sig .tc := ⟨.hbm, 126, rfl⟩
abbrev main_cst_20 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_v93 : Ref sig .tc := ⟨.hbm, 134, rfl⟩
abbrev main_cst_22 : Ref sig .tc := ⟨.hbm, 135, rfl⟩
abbrev main_v94 : Ref sig .tc := ⟨.hbm, 136, rfl⟩
abbrev main_v95 : Ref sig .tc := ⟨.hbm, 137, rfl⟩
abbrev main_c_23 : Ref sig .tc := ⟨.hbm, 138, rfl⟩
abbrev main_v96 : Ref sig .tc := ⟨.hbm, 139, rfl⟩
abbrev main_v97 : Ref sig .tc := ⟨.hbm, 140, rfl⟩
abbrev main_c_24 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_25 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_26 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_call0_cst : Ref sig .tc := ⟨.hbm, 178, rfl⟩
abbrev main_call0_v0 : Ref sig .tc := ⟨.hbm, 179, rfl⟩
abbrev main_v132 : Ref sig .tc := ⟨.hbm, 180, rfl⟩
abbrev main_v133 : Ref sig .tc := ⟨.hbm, 181, rfl⟩
abbrev main_cst_27 : Ref sig .tc := ⟨.hbm, 182, rfl⟩
abbrev main_v134 : Ref sig .tc := ⟨.hbm, 183, rfl⟩
abbrev main_v135 : Ref sig .tc := ⟨.hbm, 184, rfl⟩
abbrev main_cst_28 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_29 : Ref sig .tc := ⟨.hbm, 191, rfl⟩
abbrev main_v141 : Ref sig .tc := ⟨.hbm, 192, rfl⟩
abbrev main_v142 : Ref sig .tc := ⟨.hbm, 193, rfl⟩
abbrev main_cst_30 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_31 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S50000x64_S50000x6_0_0 : S50000x64.Slices ![0, 0] S50000x6
  bcast_S_S800000 : S_.BroadcastsInDim S800000 (![] : Fin 0 → Fin S800000.rank)
  bcast_S800000_S800000x1_0 : S800000.BroadcastsInDim S800000x1 (![0] : Fin 1 → Fin S800000x1.rank)
  reducesTo_S800000x64_S800000_d1 : S800000x64.ReducesTo [1] S800000
  h_S_ : 0 < S_.numel
  reducesTo_S800000x6_S800000_d1 : S800000x6.ReducesTo [1] S800000
  bcast_S_S50000 : S_.BroadcastsInDim S50000 (![] : Fin 0 → Fin S50000.rank)
  shapeCasts_S800000x1_S800000 : S800000x1.ShapeCasts S800000
  shapeCasts_S1_S_ : S1.ShapeCasts S_
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  gather_S50000x6_S800000x1_S800000x6_1_0_n_n_0_1_16_wf : GatherDims.WF S50000x6 S800000x1 S800000x6 [1] [0] [] [0] [] 1 ![1, 6]
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S800000x64_S64x1_S800000x1_1_0_0_1_n_n_wf : DotDims.WF S800000x64 S64x1 S800000x1 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x6_S6x64_S50000x64_1_0_0_1_n_n_wf : DotDims.WF S50000x6 S6x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x6_S800000x1_S800000x6_1_0_n_n_0_1_16 : GatherDims S50000x6 S800000x1 S800000x6 where
  offsetDims := [1]
  collapsedSliceDims := [0]
  operandBatchingDims := []
  startIndicesBatchingDims := []
  startIndexMap := [0]
  indexVectorDim := 1
  sliceSizes := ![1, 6]
  wf := gather_S50000x6_S800000x1_S800000x6_1_0_n_n_0_1_16_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x6_S6x64_S50000x64_1_0_0_1_n_n : DotDims S50000x6 S6x64 S50000x64 where
  lhsContracting := [1]
  rhsContracting := [0]
  lhsNonContracting := [0]
  rhsNonContracting := [1]
  lhsBatch := []
  rhsBatch := []
  wf := dot_S50000x6_S6x64_S50000x64_1_0_0_1_n_n_wf

class Facts : Prop extends Facts₀ where

variable [Facts]
-- ==== Proof.KernelRun.lean ====
/-
  The kernel program's run with its result read: @main is six segments — a stretch of host operations, the
  per-edge scalars' region, a stretch, the messages' region, a stretch, the per-node region — and every weakly fair
  execution from a memory with zero counters ends with every unscoped buffer at the contents the last boundary
  names. Read at the result buffer this is the last region's output array as its write-backs leave it; read at an
  argument it is the launch contents, because no segment writes an argument.
-/
import proofs.«137422_j60773787238721_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents (the per-node region's output array as its write-backs leave it) and every argument
    array as launched. -/
theorem run_main : θ_run defs (onTc (τ := τ) (main (F := F))) ⟨m, fun _ => 0, ρ⟩ (fun r => ∀ c : Dev nD,
      r.2.mem ((c.tc : Thread nD τ).loc main_v95) = W6 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v95 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c)⟩)

end Cert.KernelIdeal.Run

end
-- ==== Proof.HostEntry.lean ====
/-
  What the per-edge scalars' region finds: after the first stretch of host operations the source and target index
  vectors, the two gathered feature arrays h[src] and h[tgt] and the two re-laid biases are the same functions of
  the launch arrays as the reference's own first operations (the two programs spell this stretch alike), and every
  weight the region reads is still the launch array.
-/
import proofs.«137422_j60773787238721_2_alg».proof.Proof.Gen.KernelIdeal.Frame
import proofs.«137422_j60773787238721_2_alg».proof.Proof.Gen.ReferenceIdeal.Read
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v11 val_main_v18)

variable (m : (ℓ : Loc nD τ sig) → Buf (Elt Ideal) ℓ) (ρ : Dev nD → PrngReg) (c : Dev nD)

/-- The source index vector. -/
theorem src : W1 m ρ c (Proc.devRef .tc main_v1) = val_main_v1 (F := Ideal) (m ((c : Thread nD τ).loc main_arg0)) := by
  show StableHlo.after hostOps0 (W0 m ρ c) (Proc.devRef .tc main_v1) = _
  after_results_simp <;> rfl

/-- The target index vector. -/
theorem tgt : W1 m ρ c (Proc.devRef .tc main_v3) = val_main_v3 (F := Ideal) (m ((c : Thread nD τ).loc main_arg0)) := by
  show StableHlo.after hostOps0 (W0 m ρ c) (Proc.devRef .tc main_v3) = _
  after_results_simp <;> rfl

/-- The gathered source rows h[src]. -/
theorem hsrc : W1 m ρ c (Proc.devRef .tc main_v10)
    = val_main_v11 (F := Ideal) (m ((c : Thread nD τ).loc main_arg0)) (m ((c : Thread nD τ).loc main_arg1)) := by
  show StableHlo.after hostOps0 (W0 m ρ c) (Proc.devRef .tc main_v10) = _
  after_results_simp <;> rfl

/-- The gathered target rows h[tgt]. -/
theorem htgt : W1 m ρ c (Proc.devRef .tc main_v17)
    = val_main_v18 (F := Ideal) (m ((c : Thread nD τ).loc main_arg0)) (m ((c : Thread nD τ).loc main_arg1)) := by
  show StableHlo.after hostOps0 (W0 m ρ c) (Proc.devRef .tc main_v17) = _
  after_results_simp <;> rfl

/-- The defence bias as a [1,1] array. -/
theorem fdb : W1 m ρ c (Proc.devRef .tc main_v18)
    = shapeCast S1x1 (m ((c : Thread nD τ).loc main_arg8)) shapeCasts_S1_S1x1 := by
  show StableHlo.after hostOps0 (W0 m ρ c) (Proc.devRef .tc main_v18) = _
  after_results_simp <;> rfl

/-- The message bias as a [1,64] row. -/
theorem phib : W1 m ρ c (Proc.devRef .tc main_v19)
    = shapeCast S1x64 (m ((c : Thread nD τ).loc main_arg4)) shapeCasts_S64_S1x64 := by
  show StableHlo.after hostOps0 (W0 m ρ c) (Proc.devRef .tc main_v19) = _
  after_results_simp <;> rfl

/-- No operation of the first stretch writes a weight. -/
theorem arg2 : W1 m ρ c (Proc.devRef .tc main_arg2) = m ((c : Thread nD τ).loc main_arg2) := by
  show StableHlo.after hostOps0 (W0 m ρ c) (Proc.devRef .tc main_arg2) = _
  after_results_simp <;> rfl
theorem arg3 : W1 m ρ c (Proc.devRef .tc main_arg3) = m ((c : Thread nD τ).loc main_arg3) := by
  show StableHlo.after hostOps0 (W0 m ρ c) (Proc.devRef .tc main_arg3) = _
  after_results_simp <;> rfl
theorem arg5 : W1 m ρ c (Proc.devRef .tc main_arg5) = m ((c : Thread nD τ).loc main_arg5) := by
  show StableHlo.after hostOps0 (W0 m ρ c) (Proc.devRef .tc main_arg5) = _
  after_results_simp <;> rfl
theorem arg6 : W1 m ρ c (Proc.devRef .tc main_arg6) = m ((c : Thread nD τ).loc main_arg6) := by
  show StableHlo.after hostOps0 (W0 m ρ c) (Proc.devRef .tc main_arg6) = _
  after_results_simp <;> rfl
theorem arg7 : W1 m ρ c (Proc.devRef .tc main_arg7) = m ((c : Thread nD τ).loc main_arg7) := by
  show StableHlo.after hostOps0 (W0 m ρ c) (Proc.devRef .tc main_arg7) = _
  after_results_simp <;> rfl

end Cert.KernelIdeal.Entry

end
-- ==== Proof.LibRowScalars.lean ====
/-
  Reading a block of rows one row at a time, for any number of rows `a` and any row length `b`:

  * the sum along the lanes of an `[a, b]` array, at row `p`, is `∑ k : Fin b` of the entries of row `p`;
  * a vector of `a` entries regarded as an `[a, 1]` column has entry `p` in row `p`;
  * the single entry of a `[1, 1]` array broadcast down an `[a, 1]` column is that entry in every row;
  * the leading `m` columns of an `[a, b]` array, at `(p, k)`, are the array at `(p, k)`;
  * three `[a, 1]` columns laid side by side into `[a, 3]` have, in row `p`, the first column's entry at
    column 0, the second's at column 1, the third's at column 2.

  All hold for every extent `a` (and `b`, `m ≤ b`); the column count of the last one is the literal 3.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowScalars

open Idealize.ShloMosaic Idealize.ShloMosaic.ValueIdx

variable {α : Type}

/-- The lane sum of an `[a, b]` array of extended reals at row `p`: the sum of that row's `b` entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext d
  match d with
  | ⟨0, _⟩ => rfl
  | ⟨1, _⟩ => rfl

/-- A vector of `a` entries cast to an `[a, 1]` column reads, at `(p, u)`, entry `p`. -/
theorem column_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The one entry of a `[1, 1]` array broadcast down an `[a, 1]` column is that entry, in every row. -/
theorem splat11_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  have hu : u = 0 := Subsingleton.elim _ _
  subst hu
  exact broadcastTo_1b_ab_apply v h p 0

/-- The leading `m` columns of an `[a, b]` array read, at `(p, k)`, the array at `(p, k)`. -/
theorem leadingCols_apply {a b m : ℕ} (X : (⟨2, ![a, b]⟩ : Shape).Idx → α)
    (h : (⟨2, ![a, b]⟩ : Shape).Slices ![0, 0] ⟨2, ![a, m]⟩) (p : Fin a) (k : Fin m) (k' : Fin b) (hk : k'.val = k.val) :
    extractStridedSlice ⟨2, ![a, m]⟩ ![0, 0] X h (ix2 p k) = X (ix2 p k') :=
  slice2_axis1_apply 0 X h p k k' (by rw [hk, Nat.zero_add])

section ThreeColumns

variable {a : ℕ} (x y z : (⟨2, ![a, 1]⟩ : Shape).Idx → α)
  (h : Shape.Concatenates [(⟨2, ![a, 1]⟩ : Shape), ⟨2, ![a, 1]⟩, ⟨2, ![a, 1]⟩] ⟨2, ![a, 3]⟩ 1)

/-- Three columns side by side, read in column 0: the first column. -/
theorem cols3_apply_0 (p : Fin a) :
    concatenate ⟨2, ![a, 3]⟩ 1 [⟨⟨2, ![a, 1]⟩, x⟩, ⟨⟨2, ![a, 1]⟩, y⟩, ⟨⟨2, ![a, 1]⟩, z⟩] h (ix2 p (0 : Fin 3))
      = x (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (0 : Fin 3)) 0 (by show 0 < 3; omega) ⟨2, ![a, 1]⟩ x rfl rfl 0 rfl (ix2 p (0 : Fin 1))
    (fun b hb => by
      match b with
      | ⟨0, _⟩ => rfl
      | ⟨1, _⟩ => exact absurd rfl hb)
    rfl

/-- Three columns side by side, read in column 1: the second column. -/
theorem cols3_apply_1 (p : Fin a) :
    concatenate ⟨2, ![a, 3]⟩ 1 [⟨⟨2, ![a, 1]⟩, x⟩, ⟨⟨2, ![a, 1]⟩, y⟩, ⟨⟨2, ![a, 1]⟩, z⟩] h (ix2 p (1 : Fin 3))
      = y (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (1 : Fin 3)) 1 (by show 1 < 3; omega) ⟨2, ![a, 1]⟩ y rfl rfl 1 rfl (ix2 p (0 : Fin 1))
    (fun b hb => by
      match b with
      | ⟨0, _⟩ => rfl
      | ⟨1, _⟩ => exact absurd rfl hb)
    rfl

/-- Three columns side by side, read in column 2: the third column. -/
theorem cols3_apply_2 (p : Fin a) :
    concatenate ⟨2, ![a, 3]⟩ 1 [⟨⟨2, ![a, 1]⟩, x⟩, ⟨⟨2, ![a, 1]⟩, y⟩, ⟨⟨2, ![a, 1]⟩, z⟩] h (ix2 p (2 : Fin 3))
      = z (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (2 : Fin 3)) 2 (by show 2 < 3; omega) ⟨2, ![a, 1]⟩ z rfl rfl 2 rfl (ix2 p (0 : Fin 1))
    (fun b hb => by
      match b with
      | ⟨0, _⟩ => rfl
      | ⟨1, _⟩ => exact absurd rfl hb)
    rfl

end ThreeColumns

end Cert.RowScalars

end
-- ==== Proof.EdgeLayer.lean ====
/-
  The layer's three dense stages as functions of arrays, index by index, over the extended reals.

  * per edge `e` (rows `hs e`, `ht e` of the gathered source and target features):
      score e = Σ_k ht[e,k] · (Σ_j hs[e,j] · Watt[j,k]) + Σ_{k<6} hs[e,k] · ht[e,k]
      pair  e = Σ_k (Σ_j hs[e,j] · Wp[j,k]) · (Σ_j ht[e,j] · Wpp[j,k])
      psi   e = Σ_j ht[e,j] · fdw[j,0] + fdb
    laid side by side as the three columns of an [E,3] array (`scal`);
  * the message of edge `e`, column `q`: (Σ_j hs[e,j] · Φ[j,q] + b[q]) · coef[e]  (`msg`);
  * per node `r`: x[r,q] = max(self + agg + str, 0) + h[r,q], then the row's normalisation
      (x − mean x) · rsqrt(var x + ε) · g + b  (`nodeOut`).

  The one law that is not a re-association: for v > 0 (real or +∞), a / √v = a · rsqrt v for every extended
  real a; and the variance plus ε is always > 0, because a square is never negative on the extended reals
  (`normDiv_eq_norm`). A product of three factors re-associates freely: multiplication on the extended reals
  is commutative and associative (`mul_mul_swap`).
-/
import Idealize.ShloMosaic.PureOps.Ideal
import Idealize.ShloMosaic.Lib.ValueIdx

noncomputable section

open scoped BigOperators

namespace Cert.EdgeLayer

open Idealize.ShloMosaic Idealize.ShloMosaic.ValueIdx

abbrev E64 : Shape := ⟨2, ![800000, 64]⟩
abbrev E3 : Shape := ⟨2, ![800000, 3]⟩
abbrev E1 : Shape := ⟨2, ![800000, 1]⟩
abbrev N64 : Shape := ⟨2, ![50000, 64]⟩
abbrev M64 : Shape := ⟨2, ![64, 64]⟩
abbrev M61 : Shape := ⟨2, ![64, 1]⟩
abbrev M6 : Shape := ⟨2, ![6, 64]⟩
abbrev R64 : Shape := ⟨2, ![1, 64]⟩
abbrev U11 : Shape := ⟨2, ![1, 1]⟩

abbrev V64 : Shape := ⟨1, ![64]⟩

/-- A vector of 64 regarded as one row. -/
def row (b : V64.Idx → EReal) : R64.Idx → EReal := fun i => b (ix1 (i 1))

/-- One of the first six columns, as a column of the 64. -/
abbrev lo (k : Fin 6) : Fin 64 := ⟨k.val, by have := k.isLt; omega⟩

/-- The attention score of edge `e`. -/
def score (hs ht : E64.Idx → EReal) (watt : M64.Idx → EReal) (e : Fin 800000) : EReal :=
  (∑ k : Fin 64, ht (ix2 e k) * ∑ j : Fin 64, hs (ix2 e j) * watt (ix2 j k))
    + ∑ k : Fin 6, hs (ix2 e (lo k)) * ht (ix2 e (lo k))

/-- The pairing term of edge `e`. -/
def pair (hs ht : E64.Idx → EReal) (wp wpp : M64.Idx → EReal) (e : Fin 800000) : EReal :=
  ∑ k : Fin 64, (∑ j : Fin 64, hs (ix2 e j) * wp (ix2 j k)) * (∑ j : Fin 64, ht (ix2 e j) * wpp (ix2 j k))

/-- The defence term of edge `e`. -/
def psi (ht : E64.Idx → EReal) (fdw : M61.Idx → EReal) (fdb : EReal) (e : Fin 800000) : EReal :=
  (∑ j : Fin 64, ht (ix2 e j) * fdw (ix2 j 0)) + fdb

/-- The three per-edge scalars side by side: column 0 the score, column 1 the pairing term, column 2 the defence term. -/
def scal (hs ht : E64.Idx → EReal) (watt wp wpp : M64.Idx → EReal) (fdw : M61.Idx → EReal) (fdb : U11.Idx → EReal) :
    E3.Idx → EReal := fun i =>
  if (i 1).val = 0 then score hs ht watt (i 0)
  else if (i 1).val = 1 then pair hs ht wp wpp (i 0)
  else psi ht fdw (fdb (ix2 0 0)) (i 0)

/-- The scaled message: row `e` of `hs · Φ + b` times the edge's coefficient. -/
def msg (hs : E64.Idx → EReal) (coef : E1.Idx → EReal) (phiw : M64.Idx → EReal) (phib : R64.Idx → EReal) :
    E64.Idx → EReal := fun i =>
  ((∑ j : Fin 64, hs (ix2 (i 0) j) * phiw (ix2 j (i 1))) + phib (ix2 0 (i 1))) * coef (ix2 (i 0) 0)

/-- Node `r`, column `q`, before the normalisation: the three affine terms summed, clipped below at zero, plus the residual. -/
def pre (h matt : N64.Idx → EReal) (wself : M64.Idx → EReal) (bself : R64.Idx → EReal) (wA : M64.Idx → EReal)
    (bA : R64.Idx → EReal) (wstr : M6.Idx → EReal) (bstr : R64.Idx → EReal) (r : Fin 50000) (q : Fin 64) : EReal :=
  max ((((∑ j : Fin 64, h (ix2 r j) * wself (ix2 j q)) + bself (ix2 0 q))
        + ((∑ j : Fin 64, matt (ix2 r j) * wA (ix2 j q)) + bA (ix2 0 q)))
       + ((∑ j : Fin 6, h (ix2 r (lo j)) * wstr (ix2 j q)) + bstr (ix2 0 q))) 0
    + h (ix2 r q)

/-- The row length 64 and the variance floor, as the two programs spell them. -/
def c64 : EReal := Ideal.ofBits .f32 0x42800000#32
def eps : EReal := Ideal.ofBits .f32 0x3727C5AC#32

/-- The mean of a row of 64. -/
def mean (x : Fin 64 → EReal) : EReal := Ideal.div (∑ q : Fin 64, x q) c64
/-- The (biased) variance of a row of 64. -/
def var (x : Fin 64 → EReal) : EReal := mean fun q => (x q - mean x) * (x q - mean x)
/-- A row's entry, centred and scaled by the reciprocal square root. -/
def norm (x : Fin 64 → EReal) (q : Fin 64) : EReal := (x q - mean x) * Ideal.rsqrt (var x + eps)
/-- The same with a division by the square root. -/
def normDiv (x : Fin 64 → EReal) (q : Fin 64) : EReal := Ideal.div (x q - mean x) (Ideal.sqrt (var x + eps))

/-- The layer's output at node `i 0`, column `i 1`. -/
def nodeOut (h matt : N64.Idx → EReal) (wself : M64.Idx → EReal) (bself : R64.Idx → EReal) (wA : M64.Idx → EReal)
    (bA : R64.Idx → EReal) (wstr : M6.Idx → EReal) (bstr lng lnb : R64.Idx → EReal) : N64.Idx → EReal := fun i =>
  norm (pre h matt wself bself wA bA wstr bstr (i 0)) (i 1) * lng (ix2 0 (i 1)) + lnb (ix2 0 (i 1))

/-! ## The laws -/

/-- Three factors re-associate and commute freely on the extended reals. -/
theorem mul_mul_swap (a p r : EReal) : (a * p) * r = p * (a * r) := by
  rw [mul_comm a p, mul_assoc]

theorem c64_eq : c64 = ((64 : ℝ) : EReal) := by
  unfold c64; simp [Ideal.ofBits, Ideal.ieee]
  rw [← EReal.coe_mul]; norm_num

theorem eps_pos : 0 < eps := by
  unfold eps; simp [Ideal.ofBits, Ideal.ieee]
  rw [← EReal.coe_mul, EReal.coe_pos]
  positivity

/-- A square is never negative, at the infinities too. -/
theorem mul_self_nonneg (a : EReal) : 0 ≤ a * a := by
  induction a using EReal.rec with
  | bot => simp
  | top => simp
  | coe r => exact_mod_cast _root_.mul_self_nonneg r

/-- The mean of nonnegative entries is nonnegative. -/
theorem mean_nonneg {x : Fin 64 → EReal} (hx : ∀ q, 0 ≤ x q) : 0 ≤ mean x := by
  unfold mean
  rw [c64_eq, Ideal.div_coe (by norm_num : (64 : ℝ) ≠ 0)]
  exact mul_nonneg (Finset.sum_nonneg fun q _ => hx q) (by exact_mod_cast (by norm_num : (0 : ℝ) ≤ 1 / 64))

theorem var_add_eps_pos (x : Fin 64 → EReal) : 0 < var x + eps :=
  lt_of_lt_of_le eps_pos (le_add_of_nonneg_left (mean_nonneg fun q => mul_self_nonneg _))

/-- For a positive `v` (real or +∞) dividing by its square root is multiplying by its reciprocal square root. -/
theorem div_sqrt_eq_mul_rsqrt {v : EReal} (hv : 0 < v) (a : EReal) :
    Ideal.div a (Ideal.sqrt v) = a * Ideal.rsqrt v := by
  induction v using EReal.rec with
  | bot => exact absurd hv (by simp)
  | top =>
    show Ideal.div a ⊤ = a * 0
    rw [Ideal.div, if_neg (by simp), EReal.inv_top]
  | coe r =>
    have hr : 0 < r := by exact_mod_cast hv
    have hs : 0 < Real.sqrt r := Real.sqrt_pos.mpr hr
    show Ideal.div a (if r < 0 then (⊥ : EReal) else ((Real.sqrt r : ℝ) : EReal))
      = a * (if r < 0 then (⊥ : EReal) else if r = 0 then (⊤ : EReal) else (((Real.sqrt r)⁻¹ : ℝ) : EReal))
    rw [if_neg (not_lt.mpr hr.le), if_neg (not_lt.mpr hr.le), if_neg hr.ne']
    rw [Ideal.div, if_neg (by exact_mod_cast hs.ne'), EReal.coe_inv]

/-- The two spellings of the normalisation agree on every row. -/
theorem normDiv_eq_norm (x : Fin 64 → EReal) (q : Fin 64) : normDiv x q = norm x q :=
  div_sqrt_eq_mul_rsqrt (var_add_eps_pos x) _

end Cert.EdgeLayer

end
-- ==== Proof.PrescanBlock.lean ====
/-
  One block of 4000 edges: the three per-edge scalars the body computes, row by row.

  The body takes the block's source rows `x0` and target rows `x1` ([4000, 64]), three [64, 64] matrices, a
  [64, 1] column and a [1, 1] offset, and leaves a [4000, 3] block whose row `p` is
    column 0:  Σ_k x1[p,k] · (Σ_j x0[p,j] · W2[j,k])  +  Σ_{k<6} x0[p,k] · x1[p,k]
    column 1:  Σ_k (Σ_j x0[p,j] · W3[j,k]) · (Σ_j x1[p,j] · W4[j,k])
    column 2:  Σ_j x1[p,j] · w5[j,0]  +  b[0,0].
  On the extended reals a change of float format is the identity, a block product into a zero accumulator is the
  plain sum over the contracted axis, and a lane sum is the sum of the row's entries.
-/
import proofs.«137422_j60773787238721_2_alg».proof.Proof.Gen.KernelIdeal.Skeleton
import proofs.«137422_j60773787238721_2_alg».proof.Proof.LibRowScalars
import proofs.«137422_j60773787238721_2_alg».proof.Proof.EdgeLayer
import Idealize.ShloMosaic.PureOps.Ideal.Laws
import Idealize.ShloMosaic.Lib.ValueIdx
import Idealize.ShloMosaic.Lib.Pipeline.Value

noncomputable section

open scoped BigOperators

namespace Cert.KernelIdeal.Prescan

open Cert.KernelIdeal Cert.KernelIdeal.Gen Idealize.ShloMosaic Idealize.ShloMosaic.ValueIdx Cert.RowScalars
open Cert.EdgeLayer (lo)

/-- The dimension numbers of a [4000, 64] by [64, 64] product, and of a [4000, 64] by [64, 1] one. -/
abbrev D64 : DotDims S4000x64 S64x64 S4000x64 := dot_S4000x64_S64x64_S4000x64_1_0_0_1_n_n
abbrev D61 : DotDims S4000x64 S64x1 S4000x1 := dot_S4000x64_S64x1_S4000x1_1_0_0_1_n_n

/-! ## The operand indices of the two products -/

theorem D64_lhs0 (i : S4000x64.Idx) (q : D64.contr.Idx) : (D64.lhsIdx i q 0).val = (i 0).val := by
  unfold DotDims.lhsIdx
  rw [dif_neg (show ¬(0 : Fin S4000x64.rank) ∈ D64.lhsBatch by decide), dif_pos (show (0 : Fin S4000x64.rank) ∈ D64.lhsNonContracting by decide)]
  rfl
theorem D64_lhs1 (i : S4000x64.Idx) (q : D64.contr.Idx) : (D64.lhsIdx i q 1).val = (q ⟨0, by decide⟩).val :=
  D64.lhsIdx_val_of_single rfl i q
theorem D64_rhs0 (i : S4000x64.Idx) (q : D64.contr.Idx) : (D64.rhsIdx i q 0).val = (q ⟨0, by decide⟩).val :=
  D64.rhsIdx_val_of_single rfl i q
theorem D64_rhs1 (i : S4000x64.Idx) (q : D64.contr.Idx) : (D64.rhsIdx i q 1).val = (i 1).val := by
  unfold DotDims.rhsIdx
  rw [dif_neg (show ¬(1 : Fin S64x64.rank) ∈ D64.rhsBatch by decide), dif_pos (show (1 : Fin S64x64.rank) ∈ D64.rhsNonContracting by decide)]
  rfl

theorem D61_lhs0 (i : S4000x1.Idx) (q : D61.contr.Idx) : (D61.lhsIdx i q 0).val = (i 0).val := by
  unfold DotDims.lhsIdx
  rw [dif_neg (show ¬(0 : Fin S4000x64.rank) ∈ D61.lhsBatch by decide), dif_pos (show (0 : Fin S4000x64.rank) ∈ D61.lhsNonContracting by decide)]
  rfl
theorem D61_lhs1 (i : S4000x1.Idx) (q : D61.contr.Idx) : (D61.lhsIdx i q 1).val = (q ⟨0, by decide⟩).val :=
  D61.lhsIdx_val_of_single rfl i q
theorem D61_rhs0 (i : S4000x1.Idx) (q : D61.contr.Idx) : (D61.rhsIdx i q 0).val = (q ⟨0, by decide⟩).val :=
  D61.rhsIdx_val_of_single rfl i q
theorem D61_rhs1 (i : S4000x1.Idx) (q : D61.contr.Idx) : (D61.rhsIdx i q 1).val = (i 1).val := by
  unfold DotDims.rhsIdx
  rw [dif_neg (show ¬(1 : Fin S64x1.rank) ∈ D61.rhsBatch by decide), dif_pos (show (1 : Fin S64x1.rank) ∈ D61.rhsNonContracting by decide)]
  rfl

/-! ## The two block products at an entry -/

/-- Rows of 64 times a [64, 64] matrix, into a zero accumulator: entry `(p, q)` is `Σ_j x[p,j] · w[j,q]`. -/
theorem blockMul64 {φ₁ φ₂ : FTy} (x : FVec Ideal S4000x64 φ₁) (w : FVec Ideal S64x64 φ₂) (p : Fin 4000) (q : Fin 64) :
    matmul D64 none x w (constant (F := Ideal) S4000x64 .f32 0x00000000#32) (ix2 p q)
      = ∑ j : Fin 64, x (ix2 p j) * w (ix2 j q) := by
  show FloatOps.matmul D64 none x w (constant (F := Ideal) S4000x64 .f32 0x00000000#32) (ix2 p q) = _
  rw [Ideal.matmul_constant_zero_apply, ← Equiv.sum_comp (contrEquiv1 D64 64 rfl rfl).symm]
  refine Finset.sum_congr rfl fun k _ => ?_
  have hk := contrEquiv1_symm_val D64 64 rfl rfl k
  have el : D64.lhsIdx (ix2 p q) ((contrEquiv1 D64 64 rfl rfl).symm k) = ix2 p k := funext fun a => Fin.ext (by
    match a with
    | ⟨0, _⟩ => exact D64_lhs0 _ _
    | ⟨1, _⟩ => exact (D64_lhs1 _ _).trans hk)
  have er : D64.rhsIdx (ix2 p q) ((contrEquiv1 D64 64 rfl rfl).symm k) = ix2 k q := funext fun a => Fin.ext (by
    match a with
    | ⟨0, _⟩ => exact (D64_rhs0 _ _).trans hk
    | ⟨1, _⟩ => exact D64_rhs1 _ _)
  rw [el, er]

/-- Rows of 64 times a [64, 1] column, into a zero accumulator: entry `(p, u)` is `Σ_j x[p,j] · w[j,u]`. -/
theorem blockMul61 {φ₁ φ₂ : FTy} (x : FVec Ideal S4000x64 φ₁) (w : FVec Ideal S64x1 φ₂) (p : Fin 4000) (u : Fin 1) :
    matmul D61 none x w (constant (F := Ideal) S4000x1 .f32 0x00000000#32) (ix2 p u)
      = ∑ j : Fin 64, x (ix2 p j) * w (ix2 j u) := by
  show FloatOps.matmul D61 none x w (constant (F := Ideal) S4000x1 .f32 0x00000000#32) (ix2 p u) = _
  rw [Ideal.matmul_constant_zero_apply, ← Equiv.sum_comp (contrEquiv1 D61 64 rfl rfl).symm]
  refine Finset.sum_congr rfl fun k _ => ?_
  have hk := contrEquiv1_symm_val D61 64 rfl rfl k
  have el : D61.lhsIdx (ix2 p u) ((contrEquiv1 D61 64 rfl rfl).symm k) = ix2 p k := funext fun a => Fin.ext (by
    match a with
    | ⟨0, _⟩ => exact D61_lhs0 _ _
    | ⟨1, _⟩ => exact (D61_lhs1 _ _).trans hk)
  have er : D61.rhsIdx (ix2 p u) ((contrEquiv1 D61 64 rfl rfl).symm k) = ix2 k u := funext fun a => Fin.ext (by
    match a with
    | ⟨0, _⟩ => exact (D61_rhs0 _ _).trans hk
    | ⟨1, _⟩ => exact D61_rhs1 _ _)
  rw [el, er]

/-! ## The body's result, column by column -/

section Columns

variable (x0 x1 : Vec Ideal S4000x64 .f32) (w2 w3 w4 : Vec Ideal S64x64 .f32) (w5 : Vec Ideal S64x1 .f32)
  (b : Vec Ideal S1x1 .f32) (p : Fin 4000)

/-- Column 0 of row `p`: the target row against the source row times `W2`, plus the product of the two rows over
    their first six lanes. -/
theorem pay_col0 :
    k0_pay1 x0 x1 w2 w3 w4 w5 b (ix2 p (0 : Fin 3))
      = (∑ k : Fin 64, x1 (ix2 p k) * ∑ j : Fin 64, x0 (ix2 p j) * w2 (ix2 j k))
        + ∑ k : Fin 6, x0 (ix2 p (lo k)) * x1 (ix2 p (lo k)) := by
  unfold k0_pay1
  simp only [shapeCast_self]
  refine (cols3_apply_0 _ _ _ concatenates_S4000x1_S4000x1_S4000x1_S4000x3_d1 p).trans ?_
  refine congrArg₂ (· + ·) ?_ ?_
  · refine (column_apply _ shapeCasts_S4000_S4000x1 p 0).trans ?_
    refine (laneSum_apply _ reduces_S4000x64_S4000 (.inl rfl) rfl p).trans ?_
    refine Finset.sum_congr rfl fun k _ => ?_
    exact congrArg (x1 (ix2 p k) * ·) (blockMul64 _ _ p k)
  · refine (column_apply _ shapeCasts_S4000_S4000x1 p 0).trans ?_
    refine (laneSum_apply _ reduces_S4000x6_S4000 (.inl rfl) rfl p).trans ?_
    refine Finset.sum_congr rfl fun k _ => ?_
    exact congrArg₂ (· * ·) (leadingCols_apply x0 slices_S4000x64_o0_0_S4000x6 p k (lo k) rfl)
      (leadingCols_apply x1 slices_S4000x64_o0_0_S4000x6 p k (lo k) rfl)

/-- Column 1 of row `p`: the source row times `W3` against the target row times `W4`. -/
theorem pay_col1 :
    k0_pay1 x0 x1 w2 w3 w4 w5 b (ix2 p (1 : Fin 3))
      = ∑ k : Fin 64, (∑ j : Fin 64, x0 (ix2 p j) * w3 (ix2 j k)) * (∑ j : Fin 64, x1 (ix2 p j) * w4 (ix2 j k)) := by
  unfold k0_pay1
  simp only [shapeCast_self]
  refine (cols3_apply_1 _ _ _ concatenates_S4000x1_S4000x1_S4000x1_S4000x3_d1 p).trans ?_
  refine (column_apply _ shapeCasts_S4000_S4000x1 p 0).trans ?_
  refine (laneSum_apply _ reduces_S4000x64_S4000 (.inl rfl) rfl p).trans ?_
  refine Finset.sum_congr rfl fun k _ => ?_
  exact congrArg₂ (· * ·) (blockMul64 _ _ p k) (blockMul64 _ _ p k)

/-- Column 2 of row `p`: the target row against the column `w5`, plus the offset. -/
theorem pay_col2 :
    k0_pay1 x0 x1 w2 w3 w4 w5 b (ix2 p (2 : Fin 3))
      = (∑ j : Fin 64, x1 (ix2 p j) * w5 (ix2 j (0 : Fin 1))) + b (ix2 (0 : Fin 1) (0 : Fin 1)) := by
  unfold k0_pay1
  simp only [shapeCast_self]
  refine (cols3_apply_2 _ _ _ concatenates_S4000x1_S4000x1_S4000x1_S4000x3_d1 p).trans ?_
  exact congrArg₂ (· + ·) (blockMul61 _ _ p 0) (splat11_apply b broadcasts_S1x1_S4000x1 p 0)

end Columns

end Cert.KernelIdeal.Prescan

end
-- ==== Proof.PrescanArray.lean ====
/-
  From the blocks to the whole [800000, 3] array of per-edge scalars.

  The 800000 edges are cut into 200 blocks of 4000 consecutive rows; point `t` of the grid reads rows
  `4000 t … 4000 t + 3999` of the gathered source and target features, the whole of the three matrices, of the column and
  of the offset, and writes rows `4000 t … 4000 t + 3999` of the result. Row `p` of what it writes is, column by column,
  the score, the pairing term and the defence term of edge `4000 t + p`; every edge `r` lies in the block of point
  `r / 4000`, so after the last point the array holds the three scalars of every edge.
-/
import proofs.«137422_j60773787238721_2_alg».proof.Proof.Gen.KernelIdeal.Frame
import proofs.«137422_j60773787238721_2_alg».proof.Proof.PrescanBlock
import proofs.«137422_j60773787238721_2_alg».proof.Proof.EdgeLayer
import Idealize.ShloMosaic.Lib.Pipeline.Value

noncomputable section

open scoped BigOperators

namespace Cert.KernelIdeal.Prescan

open Cert.KernelIdeal Cert.KernelIdeal.Gen Idealize.ShloMosaic Idealize.ShloMosaic.TcCoe Idealize.SL.Sem
open Idealize.ShloMosaic.ValueIdx
open Idealize.ShloMosaic.Pipeline (Dat)

/-! ## One row of a block against one edge -/

/-- If row `p` of the two feature blocks is row `e` of the gathered features, and the small blocks are the whole
    matrices, column and offset, then row `p` of the body's result is the three scalars of edge `e`. -/
theorem block_scal (x0 x1 : Vec Ideal S4000x64 .f32) (w2 w3 w4 : Vec Ideal S64x64 .f32) (w5 : Vec Ideal S64x1 .f32)
    (b : Vec Ideal S1x1 .f32) (hs ht : EdgeLayer.E64.Idx → EReal) (W2 W3 W4 : EdgeLayer.M64.Idx → EReal)
    (W5 : EdgeLayer.M61.Idx → EReal) (B : EdgeLayer.U11.Idx → EReal) (p : Fin 4000) (e : Fin 800000)
    (h0 : ∀ j : Fin 64, x0 (ix2 p j) = hs (ix2 e j)) (h1 : ∀ j : Fin 64, x1 (ix2 p j) = ht (ix2 e j))
    (h2 : ∀ a c : Fin 64, w2 (ix2 a c) = W2 (ix2 a c)) (h3 : ∀ a c : Fin 64, w3 (ix2 a c) = W3 (ix2 a c))
    (h4 : ∀ a c : Fin 64, w4 (ix2 a c) = W4 (ix2 a c))
    (h5 : ∀ a : Fin 64, w5 (ix2 a (0 : Fin 1)) = W5 (ix2 a (0 : Fin 1)))
    (h6 : b (ix2 (0 : Fin 1) (0 : Fin 1)) = B (ix2 (0 : Fin 1) (0 : Fin 1))) (q : Fin 3) :
    k0_pay1 x0 x1 w2 w3 w4 w5 b (ix2 p q) = EdgeLayer.scal hs ht W2 W3 W4 W5 B (ix2 e q) := by
  unfold EdgeLayer.scal
  match q with
  | ⟨0, _⟩ =>
    show k0_pay1 x0 x1 w2 w3 w4 w5 b (ix2 p (0 : Fin 3)) = if (0 : ℕ) = 0 then EdgeLayer.score hs ht W2 e else _
    rw [if_pos rfl, pay_col0]
    unfold EdgeLayer.score
    simp only [h0, h1, h2]
  | ⟨1, _⟩ =>
    show k0_pay1 x0 x1 w2 w3 w4 w5 b (ix2 p (1 : Fin 3))
      = if (1 : ℕ) = 0 then _ else if (1 : ℕ) = 1 then EdgeLayer.pair hs ht W3 W4 e else _
    rw [if_neg (by decide), if_pos rfl, pay_col1]
    unfold EdgeLayer.pair
    simp only [h0, h1, h3, h4]
  | ⟨2, _⟩ =>
    show k0_pay1 x0 x1 w2 w3 w4 w5 b (ix2 p (2 : Fin 3))
      = if (2 : ℕ) = 0 then _ else if (2 : ℕ) = 1 then _ else EdgeLayer.psi ht W5 (B (ix2 (0 : Fin 1) (0 : Fin 1))) e
    rw [if_neg (by decide), if_neg (by decide), pay_col2]
    unfold EdgeLayer.psi
    simp only [h1, h5, h6]

/-! ## The blocks a point reads -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 200 points: the two feature windows and the result move one block of rows per
    point, the five small windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem edge_lt (t : Fin cfg0.N) (p : Fin 4000) : t.val * 4000 + p.val < 800000 := by
  have hN : cfg0.N = 200 := N_0
  have ht := t.isLt
  have hp := p.isLt
  omega

/-- The edge that row `p` of point `t`'s blocks belongs to. -/
abbrev edge (t : Fin cfg0.N) (p : Fin 4000) : Fin 800000 := ⟨t.val * 4000 + p.val, edge_lt t p⟩

/-- Row `p` of the source-feature block at point `t` is row `4000 t + p` of the gathered source features. -/
theorem read_src (c : Dev nD) (t : Fin cfg0.N) (p : Fin 4000) (j : Fin 64) :
    (iblk0 V c 0 t : Vec Ideal S4000x64 .f32) (ix2 p j) = (V c main_v10 : EdgeLayer.E64.Idx → EReal) (ix2 (edge t p) j) := by
  obtain ⟨e0, e1, -⟩ := idx_facts t
  show V c main_v10 (((cfg0.win 0).blk t).view.emb (ix2 p j)) = V c main_v10 (ix2 (edge t p) j)
  refine congrArg (V c main_v10) (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 64 + 1 * j.val = j.val; rw [e1]; omega

/-- Row `p` of the target-feature block at point `t` is row `4000 t + p` of the gathered target features. -/
theorem read_tgt (c : Dev nD) (t : Fin cfg0.N) (p : Fin 4000) (j : Fin 64) :
    (iblk0 V c 1 t : Vec Ideal S4000x64 .f32) (ix2 p j) = (V c main_v17 : EdgeLayer.E64.Idx → EReal) (ix2 (edge t p) j) := by
  obtain ⟨-, -, e0, e1, -⟩ := idx_facts t
  show V c main_v17 (((cfg0.win 1).blk t).view.emb (ix2 p j)) = V c main_v17 (ix2 (edge t p) j)
  refine congrArg (V c main_v17) (funext fun a => Fin.ext ?_)
  match a with
  | ⟨0, _⟩ => show win0_1.index t (0 : Fin 2) * 4000 + 1 * p.val = t.val * 4000 + p.val; rw [e0]; omega
  | ⟨1, _⟩ => show win0_1.index t (1 : Fin 2) * 64 + 1 * j.val = j.val; rw [e1]; omega

/-- Each of the three matrix blocks is the whole matrix, at every point. -/
theorem read_w2 (c : Dev nD) (t : Fin cfg0.N) (a b : Fin 64) :
    (iblk0 V c 2 t : Vec Ideal S64x64 .f32) (ix2 a b) = (V c main_arg2 : EdgeLayer.M64.Idx → EReal) (ix2 a b) := by
  obtain ⟨-, -, -, -, e0, e1, -⟩ := idx_facts t
  show V c main_arg2 (((cfg0.win 2).blk t).view.emb (ix2 a b)) = V c main_arg2 (ix2 a b)
  refine congrArg (V c main_arg2) (funext fun d => Fin.ext ?_)
  match d with
  | ⟨0, _⟩ => show win0_2.index t (0 : Fin 2) * 64 + 1 * a.val = a.val; rw [e0]; omega
  | ⟨1, _⟩ => show win0_2.index t (1 : Fin 2) * 64 + 1 * b.val = b.val; rw [e1]; omega

theorem read_w3 (c : Dev nD) (t : Fin cfg0.N) (a b : Fin 64) :
    (iblk0 V c 3 t : Vec Ideal S64x64 .f32) (ix2 a b) = (V c main_arg5 : EdgeLayer.M64.Idx → EReal) (ix2 a b) := by
  obtain ⟨-, -, -, -, -, -, e0, e1, -⟩ := idx_facts t
  show V c main_arg5 (((cfg0.win 3).blk t).view.emb (ix2 a b)) = V c main_arg5 (ix2 a b)
  refine congrArg (V c main_arg5) (funext fun d => Fin.ext ?_)
  match d with
  | ⟨0, _⟩ => show win0_3.index t (0 : Fin 2) * 64 + 1 * a.val = a.val; rw [e0]; omega
  | ⟨1, _⟩ => show win0_3.index t (1 : Fin 2) * 64 + 1 * b.val = b.val; rw [e1]; omega

theorem read_w4 (c : Dev nD) (t : Fin cfg0.N) (a b : Fin 64) :
    (iblk0 V c 4 t : Vec Ideal S64x64 .f32) (ix2 a b) = (V c main_arg6 : EdgeLayer.M64.Idx → EReal) (ix2 a b) := by
  obtain ⟨-, -, -, -, -, -, -, -, e0, e1, -⟩ := idx_facts t
  show V c main_arg6 (((cfg0.win 4).blk t).view.emb (ix2 a b)) = V c main_arg6 (ix2 a b)
  refine congrArg (V c main_arg6) (funext fun d => Fin.ext ?_)
  match d with
  | ⟨0, _⟩ => show win0_4.index t (0 : Fin 2) * 64 + 1 * a.val = a.val; rw [e0]; omega
  | ⟨1, _⟩ => show win0_4.index t (1 : Fin 2) * 64 + 1 * b.val = b.val; rw [e1]; omega

/-- The column block is the whole column, at every point. -/
theorem read_w5 (c : Dev nD) (t : Fin cfg0.N) (a : Fin 64) :
    (iblk0 V c 5 t : Vec Ideal S64x1 .f32) (ix2 a (0 : Fin 1))
      = (V c main_arg7 : EdgeLayer.M61.Idx → EReal) (ix2 a (0 : Fin 1)) := by
  obtain ⟨-, -, -, -, -, -, -, -, -, -, e0, e1, -⟩ := idx_facts t
  show V c main_arg7 (((cfg0.win 5).blk t).view.emb (ix2 a (0 : Fin 1))) = V c main_arg7 (ix2 a (0 : Fin 1))
  refine congrArg (V c main_arg7) (funext fun d => Fin.ext ?_)
  match d with
  | ⟨0, _⟩ => show win0_5.index t (0 : Fin 2) * 64 + 1 * a.val = a.val; rw [e0]; omega
  | ⟨1, _⟩ => show win0_5.index t (1 : Fin 2) * 1 + 1 * 0 = 0; rw [e1]

/-- The offset block is the one offset, at every point. -/
theorem read_b (c : Dev nD) (t : Fin cfg0.N) :
    (iblk0 V c 6 t : Vec Ideal S1x1 .f32) (ix2 (0 : Fin 1) (0 : Fin 1))
      = (V c main_v18 : EdgeLayer.U11.Idx → EReal) (ix2 (0 : Fin 1) (0 : Fin 1)) := by
  obtain ⟨-, -, -, -, -, -, -, -, -, -, -, -, e0, e1, -⟩ := idx_facts t
  show V c main_v18 (((cfg0.win 6).blk t).view.emb (ix2 (0 : Fin 1) (0 : Fin 1))) = V c main_v18 (ix2 (0 : Fin 1) (0 : Fin 1))
  refine congrArg (V c main_v18) (funext fun d => Fin.ext ?_)
  match d with
  | ⟨0, _⟩ => show win0_6.index t (0 : Fin 2) * 1 + 1 * 0 = 0; rw [e0]
  | ⟨1, _⟩ => show win0_6.index t (1 : Fin 2) * 1 + 1 * 0 = 0; rw [e1]

/-! ## What a point writes back, and the array after the last point -/

/-- The three scalars of every edge, of the arrays as the region finds them. -/
abbrev scalOf (c : Dev nD) : EdgeLayer.E3.Idx → EReal :=
  EdgeLayer.scal (V c main_v10) (V c main_v17) (V c main_arg2) (V c main_arg5) (V c main_arg6) (V c main_arg7) (V c main_v18)

/-- Point `t` writes back rows `4000 t … 4000 t + 3999` of the per-edge scalars. -/
theorem flushed_eq (c : Dev nD) (t : Fin cfg0.N) :
    (dat0 V c).flushed 7 t = ((cfg0.win 7).blk t).view.read (Elt Ideal) (scalOf V c) := by
  show (cfg0.win 7).cut (grid0.coords t) ((dat0 V c).after 7 t) = _
  rw [after0_7]
  unfold out0_7
  rw [View.canon_unit_zero hz]
  simp only [View.ld_unit_zero (S := S4000x64) hz, View.ld_unit_zero (S := S64x64) hz, View.ld_unit_zero (S := S64x1) hz,
    View.ld_unit_zero (S := S1x1) hz]
  obtain ⟨-, -, -, -, -, -, -, -, -, -, -, -, -, -, e0, e1⟩ := idx_facts t
  funext j
  obtain ⟨p, q, rfl⟩ : ∃ (p : Fin 4000) (q : Fin 3), j = ix2 p q := ⟨j 0, j 1, eq_ix2 j⟩
  show k0_pay1 (iblk0 V c 0 t) (iblk0 V c 1 t) (iblk0 V c 2 t) (iblk0 V c 3 t) (iblk0 V c 4 t) (iblk0 V c 5 t)
      (iblk0 V c 6 t) (ix2 p q) = scalOf V c (((cfg0.win 7).blk t).view.emb (ix2 p q))
  have hemb : ((cfg0.win 7).blk t).view.emb (ix2 p q) = ix2 (edge t p) q := funext fun a => Fin.ext (by
    match a with
    | ⟨0, _⟩ => show win0_7.index t (0 : Fin 2) * 4000 + 1 * p.val = t.val * 4000 + p.val; rw [e0]; omega
    | ⟨1, _⟩ => show win0_7.index t (1 : Fin 2) * 3 + 1 * q.val = q.val; rw [e1]; omega)
  rw [hemb]
  exact block_scal (iblk0 V c 0 t) (iblk0 V c 1 t) (iblk0 V c 2 t) (iblk0 V c 3 t) (iblk0 V c 4 t) (iblk0 V c 5 t)
    (iblk0 V c 6 t) (V c main_v10) (V c main_v17) (V c main_arg2) (V c main_arg5) (V c main_arg6) (V c main_arg7)
    (V c main_v18) p (edge t p) (read_src V c t p) (read_tgt V c t p) (read_w2 V c t) (read_w3 V c t) (read_w4 V c t)
    (read_w5 V c t) (read_b V c t) q

/-- An index of the result array is in point `t`'s block iff each coordinate is in the block's range on its axis. -/
theorem mem_blk (t : Fin cfg0.N) (i : S800000x3.Idx) :
    i ∈ ((cfg0.win 7).blk t).view.set ↔ ∀ a : Fin 2, win0_7.index t a * S4000x3.size a ≤ (i a).val
      ∧ (i a).val < win0_7.index t a * S4000x3.size a + S4000x3.size a := by
  show i ∈ ((View.whole main_v20).slice (win0_7.rect t)).set ↔ _
  rw [View.set_slice_whole, Rect.mem_set_unit]
  exact Iff.rfl

/-- Every entry of the result array is written: row `r` by point `r / 4000`. -/
theorem cover (i : S800000x3.Idx) :
    ∃ t : Fin cfg0.N, (cfg0.win 7).flush t = true ∧ i ∈ ((cfg0.win 7).blk t).view.set := by
  have hN : cfg0.N = 200 := N_0
  have hi0 : (i 0).val < 800000 := (i 0).isLt
  have hi1 : (i 1).val < 3 := (i 1).isLt
  have hlt : (i 0).val / 4000 < cfg0.N := by omega
  obtain ⟨-, -, -, -, -, -, -, -, -, -, -, -, -, -, e0, e1⟩ := idx_facts ⟨(i 0).val / 4000, hlt⟩
  refine ⟨⟨(i 0).val / 4000, hlt⟩, flush0_7 _, ?_⟩
  rw [mem_blk]
  intro a
  match a with
  | ⟨0, _⟩ =>
    show win0_7.index ⟨(i 0).val / 4000, hlt⟩ (0 : Fin 2) * 4000 ≤ (i 0).val
      ∧ (i 0).val < win0_7.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_7.index ⟨(i 0).val / 4000, hlt⟩ (1 : Fin 2) * 3 ≤ (i 1).val
      ∧ (i 1).val < win0_7.index ⟨(i 0).val / 4000, hlt⟩ (1 : Fin 2) * 3 + 3
    rw [e1]
    omega

/-- After the region the result array holds, for every edge, its score, pairing term and defence term, computed from
    the arrays as the region found them. -/
theorem final (c : Dev nD) :
    (dat0 (F := Ideal) V c).arrAt 7 cfg0.N
      = EdgeLayer.scal (V c main_v10) (V c main_v17) (V c main_arg2) (V c main_arg5) (V c main_arg6) (V c main_arg7)
          (V c main_v18) :=
  (dat0 V c).arrAt_eq_of_cover 7 (scalOf V c) (fun t _ => flushed_eq V c t) cover

end Cert.KernelIdeal.Prescan

end
-- ==== Proof.AfterPrescan.lean ====
/-
  The buffers after the per-edge scalars' region. Its result array is `EdgeLayer.scal` of the reference's two
  gathered arrays and the launch weights (the region's closed form at what the first stretch left); the region
  writes nothing else, so the index vectors, the gathered source rows, the message weight and the message bias
  are what the first stretch left.
-/
import proofs.«137422_j60773787238721_2_alg».proof.Proof.HostEntry
import proofs.«137422_j60773787238721_2_alg».proof.Proof.PrescanArray

set_option maxRecDepth 16384

noncomputable section

namespace Cert.KernelIdeal.AfterPrescan

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v11 val_main_v18)

variable (m : (ℓ : Loc nD τ sig) → Buf (Elt Ideal) ℓ) (ρ : Dev nD → PrngReg) (c : Dev nD)

theorem src : W2 m ρ c (Proc.devRef .tc main_v1) = val_main_v1 (F := Ideal) (m ((c : Thread nD τ).loc main_arg0)) :=
  (W2_of_ne m ρ c main_v1 (by decide)).trans (Entry.src m ρ c)

theorem tgt : W2 m ρ c (Proc.devRef .tc main_v3) = val_main_v3 (F := Ideal) (m ((c : Thread nD τ).loc main_arg0)) :=
  (W2_of_ne m ρ c main_v3 (by decide)).trans (Entry.tgt m ρ c)

/-- The gathered source rows are an input of the region: it leaves them as it found them. -/
theorem hsrc : W2 m ρ c (Proc.devRef .tc main_v10)
    = val_main_v11 (F := Ideal) (m ((c : Thread nD τ).loc main_arg0)) (m ((c : Thread nD τ).loc main_arg1)) :=
  ((W2_arr m ρ c 0).trans (((dat0 (V1 m ρ) c).arrAt_in 0 rfl _).trans (A_eq0 (V1 m ρ) c 0))).trans (Entry.hsrc m ρ c)

theorem phib : W2 m ρ c (Proc.devRef .tc main_v19)
    = shapeCast S1x64 (m ((c : Thread nD τ).loc main_arg4)) shapeCasts_S64_S1x64 :=
  (W2_of_ne m ρ c main_v19 (by decide)).trans (Entry.phib m ρ c)

theorem arg3 : W2 m ρ c (Proc.devRef .tc main_arg3) = m ((c : Thread nD τ).loc main_arg3) :=
  (W2_of_ne m ρ c main_arg3 (by decide)).trans (Entry.arg3 m ρ c)

/-- The region's result: the three per-edge scalars of the reference's gathered arrays and the launch weights. -/
theorem scal : W2 m ρ c (Proc.devRef .tc main_v20)
    = EdgeLayer.scal (val_main_v11 (F := Ideal) (m ((c : Thread nD τ).loc main_arg0)) (m ((c : Thread nD τ).loc main_arg1)))
        (val_main_v18 (F := Ideal) (m ((c : Thread nD τ).loc main_arg0)) (m ((c : Thread nD τ).loc main_arg1)))
        (m ((c : Thread nD τ).loc main_arg2)) (m ((c : Thread nD τ).loc main_arg5)) (m ((c : Thread nD τ).loc main_arg6))
        (m ((c : Thread nD τ).loc main_arg7)) (shapeCast S1x1 (m ((c : Thread nD τ).loc main_arg8)) shapeCasts_S1_S1x1) := by
  refine (W2_arr m ρ c 7).trans ((Prescan.final (V1 m ρ) c).trans ?_)
  show EdgeLayer.scal (W1 m ρ c (Proc.devRef .tc main_v10)) (W1 m ρ c (Proc.devRef .tc main_v17))
    (W1 m ρ c (Proc.devRef .tc main_arg2)) (W1 m ρ c (Proc.devRef .tc main_arg5)) (W1 m ρ c (Proc.devRef .tc main_arg6))
    (W1 m ρ c (Proc.devRef .tc main_arg7)) (W1 m ρ c (Proc.devRef .tc main_v18)) = _
  rw [Entry.hsrc, Entry.htgt, Entry.arg2, Entry.arg5, Entry.arg6, Entry.arg7, Entry.fdb]

end Cert.KernelIdeal.AfterPrescan

end
-- ==== Proof.LibGatherRows.lean ====
/-
  Whole rows of a table gathered at a column of row numbers, read at an index, for any extents.

  What `table[rows]` lowers to for a table `[N, C]` and row numbers `[R]` held as an `[R, 1]` array: a gather with one
  offset axis (the columns), the row axis collapsed, slices of one row. Result entry `(r, k)` is the table at column `k`
  of the row whose number is `rows (r, 0)`, read as a signed integer and clamped into `0 … N − 1`; the column passes
  through.
-/
import Idealize.ShloMosaic.Lib.ValueIdx

noncomputable section

namespace Cert.LibGatherRows

open Idealize.ShloMosaic Idealize.ShloMosaic.ValueIdx

variable {α : Type}

/-- The dimension numbers of that gather; their conditions are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, k)`: column `k` of the row numbered `rows (r, 0)`, read signed and clamped into the table. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k)
      = x (ix2 ⟨min (idx (ix2 r (0 : Fin 1))).toInt.toNat (N - 1), by omega⟩ k) := by
  unfold Host.gather
  refine congrArg x (funext fun a => Fin.ext ?_)
  match a with
  | ⟨0, _⟩ =>
    show (rowDims N R C wf).start (ix2 r k) idx 0 + (rowDims N R C wf).batchCoord (ix2 r k) 0
      + (rowDims N R C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r k) idx 1 + (rowDims N R C wf).batchCoord (ix2 r k) 1
      + (rowDims N R C wf).offCoord (ix2 r k) 1 = k.val
    rw [GatherDims.batchCoord_eq_zero _ _ _ List.not_mem_nil]
    unfold GatherDims.start
    rw [dif_neg (show ¬ (1 : Fin 2) ∈ (rowDims N R C wf).startIndexMap from
      fun h => Nat.one_ne_zero (congrArg Fin.val (List.mem_singleton.mp h)))]
    simp only [Nat.add_zero, Nat.zero_add]
    rfl

end Cert.LibGatherRows

end
-- ==== Proof.RefScalars.lean ====
/-
  The reference's three per-edge scalars, edge by edge.

  With `hs`, `ht` the gathered source and target rows (left closed here), the reference computes for edge `e`
    the score        Σ_k ht[e,k] · (hs · W_att)[e,k]  +  Σ_{k<6} hs6[e,k] · ht6[e,k],
    the pairing term Σ_k (hs · W_p)[e,k] · (ht · W_pp)[e,k],
    the defence term (ht · f_w)[e,0] + f_b,
  each matrix product being the sum over the contracted axis and each sum starting from the zero word, which is 0.
  In the score's second sum `hs6`, `ht6` are rows gathered from the table cut to its first six columns, at the same
  row numbers: entry `(e, k)` of such a gather is entry `(e, k)` of the gather from the whole table, for `k < 6`.
-/
import proofs.«137422_j60773787238721_2_alg».proof.Proof.Gen.ReferenceIdeal.Read
import proofs.«137422_j60773787238721_2_alg».proof.Proof.EdgeLayer
import proofs.«137422_j60773787238721_2_alg».proof.Proof.LibGatherRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Scalars

open Cert.ReferenceIdeal Cert.ReferenceIdeal.Gen Cert.ReferenceIdeal.Read Idealize.ShloMosaic Idealize.ShloMosaic.ValueIdx

variable (x0 : (⟨S2x800000, .i32⟩ : BufTy).Contents (Elt Ideal)) (x1 : (⟨S50000x64, .f32⟩ : BufTy).Contents (Elt Ideal))
  (x2 x5 x6 : (⟨S64x64, .f32⟩ : BufTy).Contents (Elt Ideal)) (x7 : (⟨S64x1, .f32⟩ : BufTy).Contents (Elt Ideal))
  (x8 : (⟨S1, .f32⟩ : BufTy).Contents (Elt Ideal))

/-! ## The pairing term -/

/-- The pairing term of edge `e`: the source row times `W_p` against the target row times `W_pp`, summed over the 64 columns. -/
theorem pair_eq (e : Fin 800000) :
    val_main_v56 (F := Ideal) x0 x1 x5 x6 (ix1 e)
      = EdgeLayer.pair (val_main_v11 (F := Ideal) x0 x1) (val_main_v18 (F := Ideal) x0 x1) x5 x6 e := by
  have i56 : ∀ k : Fin 64, idx_main_v56 (ix1 e) k = ix2 e k := fun k => funext fun a => Fin.ext (by
    match a with | ⟨0, _⟩ => rfl | ⟨1, _⟩ => rfl)
  have l53 : ∀ k j : Fin 64, lidx_main_v53 (ix2 e k) j = ix2 e j := fun k j => funext fun a => Fin.ext (by
    match a with | ⟨0, _⟩ => rfl | ⟨1, _⟩ => rfl)
  have r53 : ∀ k j : Fin 64, ridx_main_v53 (ix2 e k) j = ix2 j k := fun k j => funext fun a => Fin.ext (by
    match a with | ⟨0, _⟩ => rfl | ⟨1, _⟩ => rfl)
  have l54 : ∀ k j : Fin 64, lidx_main_v54 (ix2 e k) j = ix2 e j := fun k j => funext fun a => Fin.ext (by
    match a with | ⟨0, _⟩ => rfl | ⟨1, _⟩ => rfl)
  have r54 : ∀ k j : Fin 64, ridx_main_v54 (ix2 e k) j = ix2 j k := fun k j => funext fun a => Fin.ext (by
    match a with | ⟨0, _⟩ => rfl | ⟨1, _⟩ => rfl)
  rw [val_main_v56_apply]
  simp only [i56, val_main_v55_apply, val_main_v53_apply, val_main_v54_apply, l53, r53, l54, r54, val_main_cst_12_apply,
    Ideal.mulf_def]
  show Ideal.ofBits .f32 0x00000000#32 + _ = _
  rw [Ideal.ofBits_zero_f32, zero_add]
  rfl

/-! ## The defence term -/

/-- The one entry of a vector of length one, regarded as a scalar. -/
theorem scalar_of_one (x : (⟨S1, .f32⟩ : BufTy).Contents (Elt Ideal)) (j : S_.Idx) :
    val_main_v73 (F := Ideal) x j = x (ix1 (0 : Fin 1)) := by
  unfold val_main_v73
  refine shapeCast_apply x shapeCasts_S1_S_ j (ix1 (0 : Fin 1)) ?_
  show (S1.rowMajor (ix1 (0 : Fin 1))).val = (S_.rowMajor j).val
  have h2 : (S_.rowMajor j).val < S_.numel := (S_.rowMajor j).isLt
  have n0 : S_.numel = 1 := by decide
  rw [Shape.rowMajor_val_one]
  show (0 : ℕ) = (S_.rowMajor j).val
  omega

/-- The defence term of edge `e`: the target row against the column `f_w`, plus the offset. -/
theorem psi_eq (e : Fin 800000) :
    val_main_v75 (F := Ideal) x0 x1 x7 x8 (ix1 e)
      = EdgeLayer.psi (val_main_v18 (F := Ideal) x0 x1) x7 (x8 (ix1 (0 : Fin 1))) e := by
  have l71 : ∀ j : Fin 64, lidx_main_v71 (idx_main_v72 (ix1 e)) j = ix2 e j := fun j => funext fun a => Fin.ext (by
    match a with | ⟨0, _⟩ => exact Nat.div_one _ | ⟨1, _⟩ => rfl)
  have r71 : ∀ j : Fin 64, ridx_main_v71 (idx_main_v72 (ix1 e)) j = ix2 j (0 : Fin 1) := fun j => funext fun a => Fin.ext (by
    match a with | ⟨0, _⟩ => rfl | ⟨1, _⟩ => rfl)
  rw [val_main_v75_apply, val_main_v72_apply, val_main_v71_apply, val_main_v74_apply, scalar_of_one]
  simp only [l71, r71, Ideal.addf_def]
  rfl

/-! ## The score -/

/-- The row numbers the six-column gathers use are the ones the whole-row gathers use. -/
theorem rows_src : val_main_v27 (F := Ideal) x0 = val_main_v10 (F := Ideal) x0 := rfl
theorem rows_tgt : val_main_v34 (F := Ideal) x0 = val_main_v17 (F := Ideal) x0 := rfl

/-- A row gathered from the table cut to its first six columns is the first six entries of the row gathered from the
    whole table: the source rows … -/
theorem src6 (e : Fin 800000) (k : Fin 6) :
    val_main_v28 (F := Ideal) x0 x1 (ix2 e k) = val_main_v11 (F := Ideal) x0 x1 (ix2 e (EdgeLayer.lo k)) := by
  unfold val_main_v28 val_main_v11
  rw [rows_src]
  refine (LibGatherRows.gather_rows_apply (N := 50000) (R := 800000) (C := 6) (by decide)
    gather_S50000x6_S800000x1_S800000x6_1_0_n_n_0_1_16_wf (val_main_v4 (F := Ideal) x1) (val_main_v10 (F := Ideal) x0) e k).trans ?_
  refine Eq.trans ?_ (LibGatherRows.gather_rows_apply (N := 50000) (R := 800000) (C := 64) (by decide)
    gather_S50000x64_S800000x1_S800000x64_1_0_n_n_0_1_164_wf x1 (val_main_v10 (F := Ideal) x0) e (EdgeLayer.lo k)).symm
  unfold val_main_v4
  exact slice2_axis1_apply 0 x1 slices_S50000x64_S50000x6_0_0 _ k (EdgeLayer.lo k) (Nat.zero_add _).symm

/-- … and the target rows. -/
theorem tgt6 (e : Fin 800000) (k : Fin 6) :
    val_main_v35 (F := Ideal) x0 x1 (ix2 e k) = val_main_v18 (F := Ideal) x0 x1 (ix2 e (EdgeLayer.lo k)) := by
  unfold val_main_v35 val_main_v18
  rw [rows_tgt]
  refine (LibGatherRows.gather_rows_apply (N := 50000) (R := 800000) (C := 6) (by decide)
    gather_S50000x6_S800000x1_S800000x6_1_0_n_n_0_1_16_wf (val_main_v4 (F := Ideal) x1) (val_main_v17 (F := Ideal) x0) e k).trans ?_
  refine Eq.trans ?_ (LibGatherRows.gather_rows_apply (N := 50000) (R := 800000) (C := 64) (by decide)
    gather_S50000x64_S800000x1_S800000x64_1_0_n_n_0_1_164_wf x1 (val_main_v17 (F := Ideal) x0) e (EdgeLayer.lo k)).symm
  unfold val_main_v4
  exact slice2_axis1_apply 0 x1 slices_S50000x64_S50000x6_0_0 _ k (EdgeLayer.lo k) (Nat.zero_add _).symm

/-- The score of edge `e`: the target row against the source row times `W_att`, plus the product of the two rows over
    their first six entries. -/
theorem score_eq (e : Fin 800000) :
    val_main_v38 (F := Ideal) x0 x1 x2 (ix1 e)
      = EdgeLayer.score (val_main_v11 (F := Ideal) x0 x1) (val_main_v18 (F := Ideal) x0 x1) x2 e := by
  have i21 : ∀ k : Fin 64, idx_main_v21 (ix1 e) k = ix2 e k := fun k => funext fun a => Fin.ext (by
    match a with | ⟨0, _⟩ => rfl | ⟨1, _⟩ => rfl)
  have i37 : ∀ k : Fin 6, idx_main_v37 (ix1 e) k = ix2 e k := fun k => funext fun a => Fin.ext (by
    match a with | ⟨0, _⟩ => rfl | ⟨1, _⟩ => rfl)
  have l19 : ∀ k j : Fin 64, lidx_main_v19 (ix2 e k) j = ix2 e j := fun k j => funext fun a => Fin.ext (by
    match a with | ⟨0, _⟩ => rfl | ⟨1, _⟩ => rfl)
  have r19 : ∀ k j : Fin 64, ridx_main_v19 (ix2 e k) j = ix2 j k := fun k j => funext fun a => Fin.ext (by
    match a with | ⟨0, _⟩ => rfl | ⟨1, _⟩ => rfl)
  rw [val_main_v38_apply, val_main_v21_apply, val_main_v37_apply]
  simp only [i21, i37, val_main_v20_apply, val_main_v19_apply, val_main_v36_apply, l19, r19, src6, tgt6,
    val_main_cst_apply, val_main_cst_7_apply, Ideal.mulf_def, Ideal.addf_def]
  show (Ideal.ofBits .f32 0x00000000#32 + _) + (Ideal.ofBits .f32 0x00000000#32 + _) = _
  rw [Ideal.ofBits_zero_f32, zero_add, zero_add]
  rfl

end Cert.ReferenceIdeal.Scalars

end
-- ==== Proof.Stretches.lean ====
/-
  The two later stretches of host operations, read at the buffers the next region takes, for ANY contents W of the
  buffers when the stretch starts.

  Middle stretch: if the three columns of the per-edge scalars' array are the reference's score, pairing and defence
  vectors, and the two index vectors are the reference's, then the coefficient column is the product of the
  reference's attention weight and one minus its gathered defence factor, laid as a column — the softmax over incoming
  edges, the two segment sums, the logarithm and the logistic are the SAME operations in both programs, applied to
  equal arrays, so they are carried along unopened.

  Last stretch: if the messages are the reference's, the aggregated messages are the reference's segment sum of
  them; each bias vector becomes a [1,64] row; no weight is written.
-/
import proofs.«137422_j60773787238721_2_alg».proof.Proof.Gen.KernelIdeal.Frame
import proofs.«137422_j60773787238721_2_alg».proof.Proof.Gen.ReferenceIdeal.Read
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v38 val_main_v56 val_main_v75 val_main_v52 val_main_v111
  val_main_v114 val_main_v117)

variable (x0 : (⟨S2x800000, .i32⟩ : BufTy).Contents (Elt Ideal)) (x1 : (⟨S50000x64, .f32⟩ : BufTy).Contents (Elt Ideal))
  (x2 x3 : (⟨S64x64, .f32⟩ : BufTy).Contents (Elt Ideal)) (x4 : (⟨S64, .f32⟩ : BufTy).Contents (Elt Ideal))
  (x5 x6 : (⟨S64x64, .f32⟩ : BufTy).Contents (Elt Ideal)) (x7 : (⟨S64x1, .f32⟩ : BufTy).Contents (Elt Ideal))
  (x8 : (⟨S1, .f32⟩ : BufTy).Contents (Elt Ideal))

set_option maxHeartbeats 4000000 in
/-- The coefficient column after the middle stretch. -/
theorem coef_of (W : Valuation τ sig (Elt Ideal))
    (hsrc : W (Proc.devRef .tc main_v1) = val_main_v1 (F := Ideal) x0)
    (htgt : W (Proc.devRef .tc main_v3) = val_main_v3 (F := Ideal) x0)
    (hc0 : (fun i => shapeCast main_v22.ty.shape (extractStridedSlice S800000x1 ![0, 0] (W (Proc.devRef .tc main_v20)) slices_S800000x3_S800000x1_0_0) shapeCasts_S800000x1_S800000 i)
      = val_main_v38 (F := Ideal) x0 x1 x2)
    (hc1 : (fun i => shapeCast main_v38.ty.shape (extractStridedSlice S800000x1 ![0, 1] (W (Proc.devRef .tc main_v20)) slices_S800000x3_S800000x1_0_1) shapeCasts_S800000x1_S800000 i)
      = val_main_v56 (F := Ideal) x0 x1 x5 x6)
    (hc2 : (fun i => shapeCast main_v54.ty.shape (extractStridedSlice S800000x1 ![0, 2] (W (Proc.devRef .tc main_v20)) slices_S800000x3_S800000x1_0_2) shapeCasts_S800000x1_S800000 i)
      = val_main_v75 (F := Ideal) x0 x1 x7 x8) :
    StableHlo.after (hostOps1 (F := Ideal)) W (Proc.devRef .tc main_v85)
      = (shapeCast S800000x1 (mulf (F := Ideal) (s := S800000) (φ := .f32) (val_main_v52 (F := Ideal) x0 x1 x2) (val_main_v111 (F := Ideal) x0 x1 x5 x6 x7 x8)) shapeCasts_S800000_S800000x1 : (⟨S800000x1, .f32⟩ : BufTy).Contents (Elt Ideal)) := by
  after_results_simp
  rw [hc0, hc1, hc2, hsrc, htgt]
  rfl

/-- The aggregated messages after the last stretch. -/
theorem matt_of (W : Valuation τ sig (Elt Ideal))
    (htgt : W (Proc.devRef .tc main_v3) = val_main_v3 (F := Ideal) x0)
    (hmsg : W (Proc.devRef .tc main_v86) = val_main_v114 (F := Ideal) x0 x1 x2 x3 x4 x5 x6 x7 x8) :
    StableHlo.after (hostOps2 (F := Ideal)) W (Proc.devRef .tc main_v89)
      = val_main_v117 (F := Ideal) x0 x1 x2 x3 x4 x5 x6 x7 x8 := by
  after_results_simp
  rw [htgt, hmsg]
  rfl

/-- The five bias vectors re-laid as rows by the last stretch. -/
theorem row90_of (W : Valuation τ sig (Elt Ideal)) :
    StableHlo.after (hostOps2 (F := Ideal)) W (Proc.devRef .tc main_v90)
      = (shapeCast S1x64 (W (Proc.devRef .tc main_arg10)) shapeCasts_S64_S1x64 : (⟨S1x64, .f32⟩ : BufTy).Contents (Elt Ideal)) := by
  after_results_simp <;> rfl
theorem row91_of (W : Valuation τ sig (Elt Ideal)) :
    StableHlo.after (hostOps2 (F := Ideal)) W (Proc.devRef .tc main_v91)
      = (shapeCast S1x64 (W (Proc.devRef .tc main_arg12)) shapeCasts_S64_S1x64 : (⟨S1x64, .f32⟩ : BufTy).Contents (Elt Ideal)) := by
  after_results_simp <;> rfl
theorem row92_of (W : Valuation τ sig (Elt Ideal)) :
    StableHlo.after (hostOps2 (F := Ideal)) W (Proc.devRef .tc main_v92)
      = (shapeCast S1x64 (W (Proc.devRef .tc main_arg14)) shapeCasts_S64_S1x64 : (⟨S1x64, .f32⟩ : BufTy).Contents (Elt Ideal)) := by
  after_results_simp <;> rfl
theorem row93_of (W : Valuation τ sig (Elt Ideal)) :
    StableHlo.after (hostOps2 (F := Ideal)) W (Proc.devRef .tc main_v93)
      = (shapeCast S1x64 (W (Proc.devRef .tc main_arg15)) shapeCasts_S64_S1x64 : (⟨S1x64, .f32⟩ : BufTy).Contents (Elt Ideal)) := by
  after_results_simp <;> rfl
theorem row94_of (W : Valuation τ sig (Elt Ideal)) :
    StableHlo.after (hostOps2 (F := Ideal)) W (Proc.devRef .tc main_v94)
      = (shapeCast S1x64 (W (Proc.devRef .tc main_arg16)) shapeCasts_S64_S1x64 : (⟨S1x64, .f32⟩ : BufTy).Contents (Elt Ideal)) := by
  after_results_simp <;> rfl

/-- A buffer the middle stretch does not write keeps its contents: the gathered source rows, the message weight
    and bias, the target index vector. -/
theorem mid_hsrc (W : Valuation τ sig (Elt Ideal)) :
    StableHlo.after (hostOps1 (F := Ideal)) W (Proc.devRef .tc main_v10) = W (Proc.devRef .tc main_v10) := by
  after_results_simp <;> rfl
theorem mid_arg3 (W : Valuation τ sig (Elt Ideal)) :
    StableHlo.after (hostOps1 (F := Ideal)) W (Proc.devRef .tc main_arg3) = W (Proc.devRef .tc main_arg3) := by
  after_results_simp <;> rfl
theorem mid_phib (W : Valuation τ sig (Elt Ideal)) :
    StableHlo.after (hostOps1 (F := Ideal)) W (Proc.devRef .tc main_v19) = W (Proc.devRef .tc main_v19) := by
  after_results_simp <;> rfl
theorem mid_tgt (W : Valuation τ sig (Elt Ideal)) :
    StableHlo.after (hostOps1 (F := Ideal)) W (Proc.devRef .tc main_v3) = W (Proc.devRef .tc main_v3) := by
  after_results_simp <;> rfl

/-- The last stretch writes no bias vector. -/
theorem last_arg10 (W : Valuation τ sig (Elt Ideal)) :
    StableHlo.after (hostOps2 (F := Ideal)) W (Proc.devRef .tc main_arg10) = W (Proc.devRef .tc main_arg10) := by
  after_results_simp <;> rfl
theorem last_arg12 (W : Valuation τ sig (Elt Ideal)) :
    StableHlo.after (hostOps2 (F := Ideal)) W (Proc.devRef .tc main_arg12) = W (Proc.devRef .tc main_arg12) := by
  after_results_simp <;> rfl
theorem last_arg14 (W : Valuation τ sig (Elt Ideal)) :
    StableHlo.after (hostOps2 (F := Ideal)) W (Proc.devRef .tc main_arg14) = W (Proc.devRef .tc main_arg14) := by
  after_results_simp <;> rfl
theorem last_arg15 (W : Valuation τ sig (Elt Ideal)) :
    StableHlo.after (hostOps2 (F := Ideal)) W (Proc.devRef .tc main_arg15) = W (Proc.devRef .tc main_arg15) := by
  after_results_simp <;> rfl
theorem last_arg16 (W : Valuation τ sig (Elt Ideal)) :
    StableHlo.after (hostOps2 (F := Ideal)) W (Proc.devRef .tc main_arg16) = W (Proc.devRef .tc main_arg16) := by
  after_results_simp <;> rfl

end Cert.KernelIdeal.Stretches

end
-- ==== Proof.Relayout.lean ====
/-
  Re-laid arrays read at an index. A column j of an [E,3] array cut out as [E,1] and regarded as a vector of E reads
  the array at (e, j); a vector of 64 regarded as a [1,64] row reads the vector's entry; a vector of E regarded as a
  column reads the vector's entry; a vector of 1 regarded as a [1,1] array reads the entry.
-/
import proofs.«137422_j60773787238721_2_alg».proof.Proof.Gen.KernelIdeal
import proofs.«137422_j60773787238721_2_alg».proof.Proof.EdgeLayer
import Idealize.ShloMosaic.Lib.Pipeline.Value
import Idealize.ShloMosaic.Lib.ValueIdx

noncomputable section

namespace Cert.KernelIdeal.Relayout

open Cert.KernelIdeal Cert.KernelIdeal.Facts₀ Cert.KernelIdeal.Facts
open Idealize.ShloMosaic Idealize.ShloMosaic.ValueIdx

variable {α : Type}

/-- Column 0 of an [E,3] array as a vector. -/
theorem column0 (S : S800000x3.Idx → α) :
    (fun i => shapeCast S800000 (extractStridedSlice S800000x1 ![0, 0] S slices_S800000x3_S800000x1_0_0) shapeCasts_S800000x1_S800000 i)
      = fun i => S (ix2 (i 0) 0) := by
  funext i
  refine (shapeCast_apply _ shapeCasts_S800000x1_S800000 i (ix2 (i 0) 0)
    (by rewrite [Shape.rowMajor_val_two, Shape.rowMajor_val_one]; show (i 0).val * 1 + 0 = (i 0).val; omega)).trans ?_
  exact extractStridedSlice_apply ![0, 0] S slices_S800000x3_S800000x1_0_0 (ix2 (i 0) 0) (ix2 (i 0) 0) (fun a => match a with
    | ⟨0, _⟩ => by show (i 0).val = 0 + (i 0).val; omega
    | ⟨1, _⟩ => by show 0 = 0 + 0; rfl)

/-- Column 1 of an [E,3] array as a vector. -/
theorem column1 (S : S800000x3.Idx → α) :
    (fun i => shapeCast S800000 (extractStridedSlice S800000x1 ![0, 1] S slices_S800000x3_S800000x1_0_1) shapeCasts_S800000x1_S800000 i)
      = fun i => S (ix2 (i 0) 1) := by
  funext i
  refine (shapeCast_apply _ shapeCasts_S800000x1_S800000 i (ix2 (i 0) 0)
    (by rewrite [Shape.rowMajor_val_two, Shape.rowMajor_val_one]; show (i 0).val * 1 + 0 = (i 0).val; omega)).trans ?_
  exact extractStridedSlice_apply ![0, 1] S slices_S800000x3_S800000x1_0_1 (ix2 (i 0) 0) (ix2 (i 0) 1) (fun a => match a with
    | ⟨0, _⟩ => by show (i 0).val = 0 + (i 0).val; omega
    | ⟨1, _⟩ => by show 1 = 1 + 0; rfl)

/-- Column 2 of an [E,3] array as a vector. -/
theorem column2 (S : S800000x3.Idx → α) :
    (fun i => shapeCast S800000 (extractStridedSlice S800000x1 ![0, 2] S slices_S800000x3_S800000x1_0_2) shapeCasts_S800000x1_S800000 i)
      = fun i => S (ix2 (i 0) 2) := by
  funext i
  refine (shapeCast_apply _ shapeCasts_S800000x1_S800000 i (ix2 (i 0) 0)
    (by rewrite [Shape.rowMajor_val_two, Shape.rowMajor_val_one]; show (i 0).val * 1 + 0 = (i 0).val; omega)).trans ?_
  exact extractStridedSlice_apply ![0, 2] S slices_S800000x3_S800000x1_0_2 (ix2 (i 0) 0) (ix2 (i 0) 2) (fun a => match a with
    | ⟨0, _⟩ => by show (i 0).val = 0 + (i 0).val; omega
    | ⟨1, _⟩ => by show 2 = 2 + 0; rfl)

/-- A vector of 64 regarded as one row. -/
theorem row_cast (v : S64.Idx → EReal) : shapeCast S1x64 v shapeCasts_S64_S1x64 = EdgeLayer.row v := by
  funext i
  unfold EdgeLayer.row
  exact shapeCast_apply v shapeCasts_S64_S1x64 i (ix1 (i 1))
    (by rewrite [Shape.rowMajor_val_one, Shape.rowMajor_val_two]
        have h0 : (i 0).val < 1 := (i 0).isLt
        show (i 1).val = (i 0).val * 64 + (i 1).val; omega)

/-- A vector of E regarded as a column. -/
theorem col_cast (v : S800000.Idx → α) :
    shapeCast S800000x1 v shapeCasts_S800000_S800000x1 = fun i => v (ix1 (i 0)) := by
  funext i
  exact shapeCast_apply v shapeCasts_S800000_S800000x1 i (ix1 (i 0))
    (by rewrite [Shape.rowMajor_val_one, Shape.rowMajor_val_two]
        have h1 : (i 1).val < 1 := (i 1).isLt
        show (i 0).val = (i 0).val * 1 + (i 1).val; omega)

/-- A vector of one entry regarded as a [1,1] array. -/
theorem unit_cast (v : S1.Idx → α) : shapeCast S1x1 v shapeCasts_S1_S1x1 (ix2 0 0) = v (ix1 0) :=
  shapeCast_apply v shapeCasts_S1_S1x1 (ix2 0 0) (ix1 0)
    (by rewrite [Shape.rowMajor_val_one, Shape.rowMajor_val_two]; rfl)

end Cert.KernelIdeal.Relayout

end
-- ==== Proof.Messages.lean ====
/-
  The messages' region read as one array. Grid point t handles edges 4000·t … 4000·t + 3999: its block of the
  result is, at (p, q), (Σ_j hs[4000·t + p, j] · Φ[j, q] + b[q]) · coef[4000·t + p] — the matrix unit's product
  into a zero accumulator is the plain sum over j, the bias row and the coefficient column are spread along the
  block — and the 200 blocks tile the [800000, 64] array, so after the run the array is `EdgeLayer.msg` of the
  arrays the region found.
-/
import proofs.«137422_j60773787238721_2_alg».proof.Proof.Gen.KernelIdeal.Frame
import proofs.«137422_j60773787238721_2_alg».proof.Proof.EdgeLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Messages

open Cert.KernelIdeal Cert.KernelIdeal.Gen
open Idealize.ShloMosaic Idealize.ShloMosaic.TcCoe Idealize.ShloMosaic.ValueIdx Idealize.SL.Sem
open Idealize.ShloMosaic.Pipeline (Dat)

/-! ## The block's arithmetic at an index -/

/-- The product's operand indices at an output index and a contraction index, coordinate by coordinate: the left
    operand is read at (row of the output, k), the right at (k, column of the output). -/
theorem lhs0 (i : S4000x64.Idx) (k : dot_S4000x64_S64x64_S4000x64_1_0_0_1_n_n.contr.Idx) : (dot_S4000x64_S64x64_S4000x64_1_0_0_1_n_n.lhsIdx i k 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs1 (i : S4000x64.Idx) (k : dot_S4000x64_S64x64_S4000x64_1_0_0_1_n_n.contr.Idx) : (dot_S4000x64_S64x64_S4000x64_1_0_0_1_n_n.lhsIdx i k 1).val = (k ⟨0, by decide⟩).val :=
  dot_S4000x64_S64x64_S4000x64_1_0_0_1_n_n.lhsIdx_val_of_single rfl i k
theorem rhs0 (i : S4000x64.Idx) (k : dot_S4000x64_S64x64_S4000x64_1_0_0_1_n_n.contr.Idx) : (dot_S4000x64_S64x64_S4000x64_1_0_0_1_n_n.rhsIdx i k 0).val = (k ⟨0, by decide⟩).val :=
  dot_S4000x64_S64x64_S4000x64_1_0_0_1_n_n.rhsIdx_val_of_single rfl i k
theorem rhs1 (i : S4000x64.Idx) (k : dot_S4000x64_S64x64_S4000x64_1_0_0_1_n_n.contr.Idx) : (dot_S4000x64_S64x64_S4000x64_1_0_0_1_n_n.rhsIdx i k 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A [4000,64] by [64,64] product into a zero accumulator, at (p, q): the sum over j of a[p,j] · b[j,q]. -/
theorem matmul_at (a : FVec Ideal S4000x64 .bf16) (b : FVec Ideal S64x64 .bf16) (p : Fin 4000) (q : Fin 64) :
    matmul dot_S4000x64_S64x64_S4000x64_1_0_0_1_n_n none a b (constant (F := Ideal) S4000x64 .f32 0x00000000#32) (ix2 p q)
      = ∑ j : Fin 64, a (ix2 p j) * b (ix2 j q) := by
  simp only [matmul]
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun x => Fin.ext (by
    match x with
    | ⟨0, _⟩ => exact lhs0 _ _
    | ⟨1, _⟩ => exact (lhs1 _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun x => Fin.ext (by
    match x with
    | ⟨0, _⟩ => exact (rhs0 _ _).trans hk
    | ⟨1, _⟩ => exact rhs1 _ _)
  rw [el, er]

/-- A [1,64] row spread down 4000 rows reads the row's entry. -/
theorem row_spread (x : FVec Ideal S1x64 .f32) (p : Fin 4000) (q : Fin 64) :
    broadcastTo S4000x64 x broadcasts_S1x64_S4000x64 (ix2 p q) = x (ix2 0 q) :=
  broadcastTo_apply x broadcasts_S1x64_S4000x64 (ix2 p q) (ix2 0 q) (fun a => by
    match a with
    | ⟨0, _⟩ => rfl
    | ⟨1, _⟩ => rfl)

/-- A [4000,1] column spread along 64 columns reads the column's entry. -/
theorem col_spread (x : FVec Ideal S4000x1 .f32) (p : Fin 4000) (q : Fin 64) :
    broadcastTo S4000x64 x broadcasts_S4000x1_S4000x64 (ix2 p q) = x (ix2 p 0) :=
  broadcastTo_apply x broadcasts_S4000x1_S4000x64 (ix2 p q) (ix2 p 0) (fun a => by
    match a with
    | ⟨0, _⟩ => rfl
    | ⟨1, _⟩ => rfl)

/-- The body's stored value at (p, q), from its four loaded blocks. -/
theorem pay_at (x0 : Vec Ideal S4000x64 .f32) (x2 : Vec Ideal S64x64 .f32) (x3 : Vec Ideal S1x64 .f32)
    (x1 : Vec Ideal S4000x1 .f32) (p : Fin 4000) (q : Fin 64) :
    k1_pay1 (F := Ideal) x0 x2 x3 x1 (ix2 p q)
      = ((∑ j : Fin 64, x0 (ix2 p j) * x2 (ix2 j q)) + x3 (ix2 0 q)) * x1 (ix2 p 0) := by
  unfold k1_pay1
  rw [shapeCast_self, shapeCast_self, shapeCast_self]
  show (matmul dot_S4000x64_S64x64_S4000x64_1_0_0_1_n_n none (truncf .bf16 x0 bitsLt_bf16_f32) (truncf .bf16 x2 bitsLt_bf16_f32) (constant (F := Ideal) S4000x64 .f32 0x00000000#32) (ix2 p q)
      + broadcastTo S4000x64 x3 broadcasts_S1x64_S4000x64 (ix2 p q)) * broadcastTo S4000x64 x1 broadcasts_S4000x1_S4000x64 (ix2 p q) = _
  rw [matmul_at, row_spread, col_spread]
  rfl

/-! ## From blocks to the array -/

theorem hz : (![0, 0] : Fin 2 → Nat) = fun _ => 0 := funext fun a => by fin_cases a <;> rfl

/-- The index maps over the grid: the two streamed operands and the result move one block of 4000 rows per point,
    the weight and the bias stay at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row p of point t's block is row 4000·t + p of the array. -/
theorem rowOf_lt (t : Fin cfg1.N) (p : Fin 4000) : t.val * 4000 + p.val < 800000 := by
  have h : t.val < grid1.N := t.isLt
  rw [N_1] at h
  have := p.isLt
  omega
abbrev rowOf (t : Fin cfg1.N) (p : Fin 4000) : Fin 800000 := ⟨t.val * 4000 + p.val, rowOf_lt t p⟩

theorem read_hs (c : Dev nD) (t : Fin cfg1.N) (p : Fin 4000) (k : Fin 64) :
    iblk1 V c 0 t (ix2 p k) = V c main_v10 (ix2 (rowOf t p) k) := by
  obtain ⟨e0, e1, -⟩ := idx_facts t
  show V c main_v10 (((cfg1.win 0).blk t).view.emb (ix2 p k)) = V c main_v10 (ix2 (rowOf t p) k)
  refine congrArg _ (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 64 + 1 * k.val = k.val; rw [e1]; omega

theorem read_coef (c : Dev nD) (t : Fin cfg1.N) (p : Fin 4000) :
    iblk1 V c 1 t (ix2 p 0) = V c main_v85 (ix2 (rowOf t p) 0) := by
  obtain ⟨-, -, e2, e3, -⟩ := idx_facts t
  show V c main_v85 (((cfg1.win 1).blk t).view.emb (ix2 p 0)) = V c main_v85 (ix2 (rowOf t p) 0)
  refine congrArg _ (funext fun a => Fin.ext ?_)
  match a with
  | ⟨0, _⟩ => show win1_1.index t (0 : Fin 2) * 4000 + 1 * p.val = t.val * 4000 + p.val; rw [e2]; omega
  | ⟨1, _⟩ => show win1_1.index t (1 : Fin 2) * 1 + 1 * 0 = 0; rw [e3]

theorem read_phiw (c : Dev nD) (t : Fin cfg1.N) (j q : Fin 64) :
    iblk1 V c 2 t (ix2 j q) = V c main_arg3 (ix2 j q) := by
  obtain ⟨-, -, -, -, e4, e5, -⟩ := idx_facts t
  show V c main_arg3 (((cfg1.win 2).blk t).view.emb (ix2 j q)) = V c main_arg3 (ix2 j q)
  refine congrArg _ (funext fun a => Fin.ext ?_)
  match a with
  | ⟨0, _⟩ => show win1_2.index t (0 : Fin 2) * 64 + 1 * j.val = j.val; rw [e4]; omega
  | ⟨1, _⟩ => show win1_2.index t (1 : Fin 2) * 64 + 1 * q.val = q.val; rw [e5]; omega

theorem read_phib (c : Dev nD) (t : Fin cfg1.N) (q : Fin 64) :
    iblk1 V c 3 t (ix2 0 q) = V c main_v19 (ix2 0 q) := by
  obtain ⟨-, -, -, -, -, -, e6, e7, -⟩ := idx_facts t
  show V c main_v19 (((cfg1.win 3).blk t).view.emb (ix2 0 q)) = V c main_v19 (ix2 0 q)
  refine congrArg _ (funext fun a => Fin.ext ?_)
  match a with
  | ⟨0, _⟩ => show win1_3.index t (0 : Fin 2) * 1 + 1 * 0 = 0; rw [e6]
  | ⟨1, _⟩ => show win1_3.index t (1 : Fin 2) * 64 + 1 * q.val = q.val; rw [e7]; omega

/-- What point t writes back is block t of the messages array. -/
theorem flushed_eq (c : Dev nD) (t : Fin cfg1.N) :
    (dat1 (F := Ideal) V c).flushed 4 t = ((cfg1.win 4).blk t).view.read (Elt Ideal)
      (EdgeLayer.msg (V c main_v10) (V c main_v85) (V c main_arg3) (V c main_v19)) := by
  show (cfg1.win 4).cut (grid1.coords t) ((dat1 V c).after 4 t) = _
  rw [after1_4]
  unfold out1_4
  rw [View.canon_unit_zero hz]
  simp only [View.ld_unit_zero (S := S4000x64) hz, View.ld_unit_zero (S := S64x64) hz, View.ld_unit_zero (S := S1x64) hz,
    View.ld_unit_zero (S := S4000x1) hz]
  obtain ⟨-, -, -, -, -, -, -, -, e8, e9⟩ := idx_facts t
  funext j
  obtain ⟨p, q, rfl⟩ : ∃ (p : Fin 4000) (q : Fin 64), j = ix2 p q := ⟨j 0, j 1, eq_ix2 j⟩
  have hemb : ((cfg1.win 4).blk t).view.emb (ix2 p q) = ix2 (rowOf t p) q := funext fun a => Fin.ext (by
    match a with
    | ⟨0, _⟩ => show win1_4.index t (0 : Fin 2) * 4000 + 1 * p.val = t.val * 4000 + p.val; rw [e8]; omega
    | ⟨1, _⟩ => show win1_4.index t (1 : Fin 2) * 64 + 1 * q.val = q.val; rw [e9]; omega)
  show k1_pay1 (F := Ideal) (iblk1 V c 0 t) (iblk1 V c 2 t) (iblk1 V c 3 t) (iblk1 V c 1 t) (ix2 p q)
    = EdgeLayer.msg (V c main_v10) (V c main_v85) (V c main_arg3) (V c main_v19) (((cfg1.win 4).blk t).view.emb (ix2 p q))
  rw [hemb]
  refine (pay_at (iblk1 V c 0 t) (iblk1 V c 2 t) (iblk1 V c 3 t) (iblk1 V c 1 t) p q).trans ?_
  rw [read_phib V c t q, read_coef V c t p]
  simp only [read_hs V c t p, read_phiw V c t]
  rfl

/-- An index of the array is in point t's block iff each coordinate is in the block's range on its axis. -/
theorem mem_blk (t : Fin cfg1.N) (i : S800000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v86).slice (win1_4.rect t)).set ↔ _
  rw [View.set_slice_whole, Rect.mem_set_unit]
  exact Iff.rfl

/-- Every row r of the array is in the block of point r / 4000. -/
theorem cover (i : S800000x64.Idx) : ∃ t : Fin cfg1.N, (cfg1.win 4).flush t = true ∧ i ∈ ((cfg1.win 4).blk t).view.set := by
  have hi0 : (i 0).val < 800000 := (i 0).isLt
  have hi1 : (i 1).val < 64 := (i 1).isLt
  have ht : (i 0).val / 4000 < cfg1.N := by rw [show cfg1.N = 200 from N_1]; omega
  obtain ⟨-, -, -, -, -, -, -, -, e8, e9⟩ := idx_facts ⟨(i 0).val / 4000, ht⟩
  refine ⟨⟨(i 0).val / 4000, ht⟩, flush1_4 _, ?_⟩
  rw [mem_blk]
  intro a
  match a with
  | ⟨0, _⟩ =>
    show win1_4.index ⟨(i 0).val / 4000, ht⟩ (0 : Fin 2) * 4000 ≤ (i 0).val ∧ (i 0).val < win1_4.index ⟨(i 0).val / 4000, ht⟩ (0 : Fin 2) * 4000 + 4000
    rw [e8]; show (i 0).val / 4000 * 4000 ≤ (i 0).val ∧ (i 0).val < (i 0).val / 4000 * 4000 + 4000; omega
  | ⟨1, _⟩ =>
    show win1_4.index ⟨(i 0).val / 4000, ht⟩ (1 : Fin 2) * 64 ≤ (i 1).val ∧ (i 1).val < win1_4.index ⟨(i 0).val / 4000, ht⟩ (1 : Fin 2) * 64 + 64
    rw [e9]; omega

/-- The messages array after the region's run, as one function of the arrays the region found. -/
theorem final (c : Dev nD) :
    (dat1 (F := Ideal) V c).arrAt 4 cfg1.N
      = EdgeLayer.msg (V c main_v10) (V c main_v85) (V c main_arg3) (V c main_v19) :=
  (dat1 (F := Ideal) V c).arrAt_eq_of_cover 4 _ (fun t _ => flushed_eq V c t) cover

end Cert.KernelIdeal.Messages

end
-- ==== Proof.RefMessages.lean ====
/-
  The reference's message array, index by index: at edge e and column q it is
  (α[e] · (Σ_j hs[e,j] · Φ[j,q] + b[q])) · (1 − ρ[e]), the attention weight and the defence factor each a column
  spread along the row. Re-associated (multiplication on the extended reals is commutative and associative) it is
  the layer's message with the coefficient α[e] · (1 − ρ[e]).
-/
import proofs.«137422_j60773787238721_2_alg».proof.Proof.Gen.ReferenceIdeal.Read
import proofs.«137422_j60773787238721_2_alg».proof.Proof.EdgeLayer

noncomputable section

open scoped BigOperators

namespace Cert.ReferenceIdeal.Messages

open Cert.ReferenceIdeal Cert.ReferenceIdeal.Read
open Idealize.ShloMosaic Idealize.ShloMosaic.ValueIdx

variable (x0 : (⟨S2x800000, .i32⟩ : BufTy).Contents (Elt Ideal)) (x1 : (⟨S50000x64, .f32⟩ : BufTy).Contents (Elt Ideal))
  (x2 x3 : (⟨S64x64, .f32⟩ : BufTy).Contents (Elt Ideal)) (x4 : (⟨S64, .f32⟩ : BufTy).Contents (Elt Ideal))
  (x5 x6 : (⟨S64x64, .f32⟩ : BufTy).Contents (Elt Ideal)) (x7 : (⟨S64x1, .f32⟩ : BufTy).Contents (Elt Ideal))
  (x8 : (⟨S1, .f32⟩ : BufTy).Contents (Elt Ideal))

/-- The reference's message array is the layer's message of the gathered source rows and the coefficient column
    "attention weight times one minus the gathered defence factor". -/
theorem msg_eq : val_main_v114 (F := Ideal) x0 x1 x2 x3 x4 x5 x6 x7 x8
    = EdgeLayer.msg (val_main_v11 (F := Ideal) x0 x1)
        (fun i => val_main_v52 (F := Ideal) x0 x1 x2 (ix1 (i 0)) * val_main_v111 (F := Ideal) x0 x1 x5 x6 x7 x8 (ix1 (i 0)))
        x3 (EdgeLayer.row x4) := by
  funext i
  obtain ⟨e, q, rfl⟩ : ∃ (e : Fin 800000) (q : Fin 64), i = ix2 e q := ⟨i 0, i 1, eq_ix2 i⟩
  rw [val_main_v114_apply, val_main_v109_apply, val_main_v108_apply, val_main_v103_apply, val_main_v107_apply,
    val_main_v104_apply, val_main_v106_apply, val_main_v105_apply, val_main_v113_apply, val_main_v112_apply]
  have h1 : idx_main_v103 (idx_main_v108 (ix2 e q)) = ix1 e := funext fun a => Fin.ext (by
    match a with
    | ⟨0, _⟩ => rfl)
  have h2 : idx_main_v112 (idx_main_v113 (ix2 e q)) = ix1 e := funext fun a => Fin.ext (by
    match a with
    | ⟨0, _⟩ => rfl)
  have h3 : idx_main_v105 (idx_main_v106 (ix2 e q)) = ix1 q := funext fun a => Fin.ext (by
    match a with
    | ⟨0, _⟩ => rfl)
  have hl : ∀ k : Fin 64, lidx_main_v104 (ix2 e q) k = ix2 e k := fun k => funext fun a => Fin.ext (by
    match a with
    | ⟨0, _⟩ => rfl
    | ⟨1, _⟩ => rfl)
  have hr : ∀ k : Fin 64, ridx_main_v104 (ix2 e q) k = ix2 k q := fun k => funext fun a => Fin.ext (by
    match a with
    | ⟨0, _⟩ => rfl
    | ⟨1, _⟩ => rfl)
  simp only [h1, h2, h3, hl, hr, Ideal.mulf_def, Ideal.addf_def]
  exact EdgeLayer.mul_mul_swap _ _ _

end Cert.ReferenceIdeal.Messages

end
-- ==== Proof.AfterMessages.lean ====
/-
  The buffers after the messages' region. The three columns of the per-edge scalars' array are the reference's
  score, pairing and defence vectors (the region's closed form, column by column, against the reference's own
  operations read at an edge); so the middle stretch leaves the coefficient column α·(1 − ρ[src]) of the
  reference's vectors, the messages' region leaves the reference's message array (its closed form with that
  coefficient is the reference's product re-associated), and the target index vector is untouched.
-/
import proofs.«137422_j60773787238721_2_alg».proof.Proof.AfterPrescan
import proofs.«137422_j60773787238721_2_alg».proof.Proof.RefScalars
import proofs.«137422_j60773787238721_2_alg».proof.Proof.Stretches
import proofs.«137422_j60773787238721_2_alg».proof.Proof.Relayout
import proofs.«137422_j60773787238721_2_alg».proof.Proof.Messages
import proofs.«137422_j60773787238721_2_alg».proof.Proof.RefMessages

set_option maxRecDepth 16384

noncomputable section

namespace Cert.KernelIdeal.AfterMessages

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read (val_main_v1 val_main_v3 val_main_v11 val_main_v18 val_main_v38 val_main_v56 val_main_v75
  val_main_v52 val_main_v111 val_main_v114)

variable (m : (ℓ : Loc nD τ sig) → Buf (Elt Ideal) ℓ) (ρ : Dev nD → PrngReg) (c : Dev nD)

/-- Column 0 of the scalars' array is the reference's score vector. -/
theorem col0 : (fun i => shapeCast main_v22.ty.shape (extractStridedSlice S800000x1 ![0, 0] (W2 m ρ c (Proc.devRef .tc main_v20)) slices_S800000x3_S800000x1_0_0) shapeCasts_S800000x1_S800000 i)
    = val_main_v38 (F := Ideal) (m ((c : Thread nD τ).loc main_arg0)) (m ((c : Thread nD τ).loc main_arg1)) (m ((c : Thread nD τ).loc main_arg2)) := by
  rw [AfterPrescan.scal m ρ c]
  refine (Relayout.column0 _).trans ?_
  funext i
  obtain ⟨e, rfl⟩ : ∃ e : Fin 800000, i = ix1 e := ⟨i 0, eq_ix1 i⟩
  exact (Cert.ReferenceIdeal.Scalars.score_eq _ _ _ e).symm

/-- Column 1 is the reference's pairing vector. -/
theorem col1 : (fun i => shapeCast main_v38.ty.shape (extractStridedSlice S800000x1 ![0, 1] (W2 m ρ c (Proc.devRef .tc main_v20)) slices_S800000x3_S800000x1_0_1) shapeCasts_S800000x1_S800000 i)
    = val_main_v56 (F := Ideal) (m ((c : Thread nD τ).loc main_arg0)) (m ((c : Thread nD τ).loc main_arg1)) (m ((c : Thread nD τ).loc main_arg5)) (m ((c : Thread nD τ).loc main_arg6)) := by
  rw [AfterPrescan.scal m ρ c]
  refine (Relayout.column1 _).trans ?_
  funext i
  obtain ⟨e, rfl⟩ : ∃ e : Fin 800000, i = ix1 e := ⟨i 0, eq_ix1 i⟩
  exact (Cert.ReferenceIdeal.Scalars.pair_eq _ _ _ _ e).symm

/-- Column 2 is the reference's defence vector. -/
theorem col2 : (fun i => shapeCast main_v54.ty.shape (extractStridedSlice S800000x1 ![0, 2] (W2 m ρ c (Proc.devRef .tc main_v20)) slices_S800000x3_S800000x1_0_2) shapeCasts_S800000x1_S800000 i)
    = val_main_v75 (F := Ideal) (m ((c : Thread nD τ).loc main_arg0)) (m ((c : Thread nD τ).loc main_arg1)) (m ((c : Thread nD τ).loc main_arg7)) (m ((c : Thread nD τ).loc main_arg8)) := by
  rw [AfterPrescan.scal m ρ c]
  refine (Relayout.column2 _).trans ?_
  funext i
  obtain ⟨e, rfl⟩ : ∃ e : Fin 800000, i = ix1 e := ⟨i 0, eq_ix1 i⟩
  refine Eq.trans ?_ (Cert.ReferenceIdeal.Scalars.psi_eq _ _ _ _ e).symm
  show EdgeLayer.psi _ _ (shapeCast S1x1 (m ((c : Thread nD τ).loc main_arg8)) shapeCasts_S1_S1x1 (ix2 0 0)) e = _
  rw [Relayout.unit_cast]

/-- The coefficient column the messages' region finds. -/
theorem coef : W3 m ρ c (Proc.devRef .tc main_v85)
    = (shapeCast S800000x1 (mulf (F := Ideal) (s := S800000) (φ := .f32) (val_main_v52 (F := Ideal) (m ((c : Thread nD τ).loc main_arg0)) (m ((c : Thread nD τ).loc main_arg1)) (m ((c : Thread nD τ).loc main_arg2)))
        (val_main_v111 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)))) shapeCasts_S800000_S800000x1 : (⟨S800000x1, .f32⟩ : BufTy).Contents (Elt Ideal)) :=
  Stretches.coef_of _ _ _ _ _ _ _ (W2 m ρ c) (AfterPrescan.src m ρ c) (AfterPrescan.tgt m ρ c) (col0 m ρ c) (col1 m ρ c) (col2 m ρ c)

theorem hsrc : W3 m ρ c (Proc.devRef .tc main_v10) = val_main_v11 (F := Ideal) (m ((c : Thread nD τ).loc main_arg0)) (m ((c : Thread nD τ).loc main_arg1)) :=
  (Stretches.mid_hsrc (W2 m ρ c)).trans (AfterPrescan.hsrc m ρ c)
theorem arg3 : W3 m ρ c (Proc.devRef .tc main_arg3) = m ((c : Thread nD τ).loc main_arg3) :=
  (Stretches.mid_arg3 (W2 m ρ c)).trans (AfterPrescan.arg3 m ρ c)
theorem phib : W3 m ρ c (Proc.devRef .tc main_v19) = shapeCast S1x64 (m ((c : Thread nD τ).loc main_arg4)) shapeCasts_S64_S1x64 :=
  (Stretches.mid_phib (W2 m ρ c)).trans (AfterPrescan.phib m ρ c)
theorem tgt3 : W3 m ρ c (Proc.devRef .tc main_v3) = val_main_v3 (F := Ideal) (m ((c : Thread nD τ).loc main_arg0)) :=
  (Stretches.mid_tgt (W2 m ρ c)).trans (AfterPrescan.tgt m ρ c)

/-- The layer's message depends only on its four arrays. -/
theorem msg_congr {a a' : EdgeLayer.E64.Idx → EReal} {b b' : EdgeLayer.E1.Idx → EReal} {w w' : EdgeLayer.M64.Idx → EReal}
    {r r' : EdgeLayer.R64.Idx → EReal} (h1 : a = a') (h2 : b = b') (h3 : w = w') (h4 : r = r') :
    EdgeLayer.msg a b w r = EdgeLayer.msg a' b' w' r' := by
  subst h1 h2 h3 h4; rfl

/-- The entrywise product of two vectors of E laid as a column reads, at (e, 0), the product of the entries at e. -/
theorem col_mul (u v : S800000.Idx → EReal) :
    (shapeCast S800000x1 (mulf (F := Ideal) (s := S800000) (φ := .f32) u v) shapeCasts_S800000_S800000x1 : EdgeLayer.E1.Idx → EReal)
      = fun i => u (ix1 (i 0)) * v (ix1 (i 0)) :=
  Relayout.col_cast _

/-- The messages' region leaves the reference's message array. -/
theorem msg : W4 m ρ c (Proc.devRef .tc main_v86)
    = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 4).trans ((Messages.final (V3 m ρ) c).trans ?_)
  refine (msg_congr (hsrc m ρ c) ((coef m ρ c).trans (col_mul _ _)) (arg3 m ρ c)
    ((phib m ρ c).trans (Relayout.row_cast _))).trans ?_
  exact (Cert.ReferenceIdeal.Messages.msg_eq _ _ _ _ _ _ _ _ _).symm

/-- The target index vector is no array of the messages' region. -/
theorem tgt : W4 m ρ c (Proc.devRef .tc main_v3) = val_main_v3 (F := Ideal) (m ((c : Thread nD τ).loc main_arg0)) :=
  (W4_of_ne m ρ c main_v3 (by decide)).trans (tgt3 m ρ c)

end Cert.KernelIdeal.AfterMessages

end
-- ==== Proof.NodeOutDot.lean ====
/-
  A block of rows times a matrix, one entry at a time.

  On the extended reals a product accumulated into zero is the plain sum over the contracted index:
    (A · B)[p, q] = Σ_k A[p, k] · B[k, q].
  Stated for the two shapes the per-node stage multiplies: a block of 5000 rows of 64 against a 64 × 64 matrix,
  and a block of 5000 rows of 6 against a 6 × 64 matrix.
-/
import proofs.«137422_j60773787238721_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.NodeOut

open Cert.KernelIdeal Idealize.ShloMosaic Idealize.ShloMosaic.ValueIdx

/-- Row coordinate of the left factor's index: the output's row. -/
theorem dot64_lhs0 (i : S5000x64.Idx) (r : dot_S5000x64_S64x64_S5000x64_1_0_0_1_n_n.contr.Idx) :
    (dot_S5000x64_S64x64_S5000x64_1_0_0_1_n_n.lhsIdx i r 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- Column coordinate of the right factor's index: the output's column. -/
theorem dot64_rhs1 (i : S5000x64.Idx) (r : dot_S5000x64_S64x64_S5000x64_1_0_0_1_n_n.contr.Idx) :
    (dot_S5000x64_S64x64_S5000x64_1_0_0_1_n_n.rhsIdx i r 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- Entry (p, q) of a block of 5000 rows of 64 times a 64 × 64 matrix, accumulated into zero: Σ_k a[p,k] · b[k,q]. -/
theorem dot64_apply (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k :=
    funext fun d => Fin.ext (by
      match d with
      | ⟨0, _⟩ => exact dot64_lhs0 _ _
      | ⟨1, _⟩ => exact (dot_S5000x64_S64x64_S5000x64_1_0_0_1_n_n.lhsIdx_val_of_single rfl _ _).trans hk)
  have er : dot_S5000x64_S64x64_S5000x64_1_0_0_1_n_n.rhsIdx (ix2 p q)
      ((contrEquiv1 dot_S5000x64_S64x64_S5000x64_1_0_0_1_n_n 64 rfl rfl).symm k) = ix2 k q :=
    funext fun d => Fin.ext (by
      match d with
      | ⟨0, _⟩ => exact (dot_S5000x64_S64x64_S5000x64_1_0_0_1_n_n.rhsIdx_val_of_single rfl _ _).trans hk
      | ⟨1, _⟩ => exact dot64_rhs1 _ _)
  rw [el, er]

/-- Row coordinate of the left factor's index, six-column product. -/
theorem dot6_lhs0 (i : S5000x64.Idx) (r : dot_S5000x6_S6x64_S5000x64_1_0_0_1_n_n.contr.Idx) :
    (dot_S5000x6_S6x64_S5000x64_1_0_0_1_n_n.lhsIdx i r 0).val = (i 0).val := by
  unfold DotDims.lhsIdx
  rw [dif_neg (show ¬(0 : Fin S5000x6.rank) ∈ dot_S5000x6_S6x64_S5000x64_1_0_0_1_n_n.lhsBatch by decide),
    dif_pos (show (0 : Fin S5000x6.rank) ∈ dot_S5000x6_S6x64_S5000x64_1_0_0_1_n_n.lhsNonContracting by decide)]
  rfl

/-- Column coordinate of the right factor's index, six-column product. -/
theorem dot6_rhs1 (i : S5000x64.Idx) (r : dot_S5000x6_S6x64_S5000x64_1_0_0_1_n_n.contr.Idx) :
    (dot_S5000x6_S6x64_S5000x64_1_0_0_1_n_n.rhsIdx i r 1).val = (i 1).val := by
  unfold DotDims.rhsIdx
  rw [dif_neg (show ¬(1 : Fin S6x64.rank) ∈ dot_S5000x6_S6x64_S5000x64_1_0_0_1_n_n.rhsBatch by decide),
    dif_pos (show (1 : Fin S6x64.rank) ∈ dot_S5000x6_S6x64_S5000x64_1_0_0_1_n_n.rhsNonContracting by decide)]
  rfl

/-- Entry (p, q) of a block of 5000 rows of 6 times a 6 × 64 matrix, accumulated into zero: Σ_{k<6} a[p,k] · b[k,q]. -/
theorem dot6_apply (a : FVec Ideal S5000x6 .bf16) (b : FVec Ideal S6x64 .bf16) (p : Fin 5000) (q : Fin 64) :
    matmul dot_S5000x6_S6x64_S5000x64_1_0_0_1_n_n none a b (constant (F := Ideal) S5000x64 .f32 0x00000000#32) (ix2 p q)
      = ∑ k : Fin 6, a (ix2 p k) * b (ix2 k q) := by
  simp only [matmul]
  rw [Ideal.matmul_constant_zero_apply,
    ← Equiv.sum_comp (contrEquiv1 dot_S5000x6_S6x64_S5000x64_1_0_0_1_n_n 6 rfl rfl).symm]
  refine Finset.sum_congr rfl fun k _ => ?_
  have hk := contrEquiv1_symm_val dot_S5000x6_S6x64_S5000x64_1_0_0_1_n_n 6 rfl rfl k
  have el : dot_S5000x6_S6x64_S5000x64_1_0_0_1_n_n.lhsIdx (ix2 p q)
      ((contrEquiv1 dot_S5000x6_S6x64_S5000x64_1_0_0_1_n_n 6 rfl rfl).symm k) = ix2 p k :=
    funext fun d => Fin.ext (by
      match d with
      | ⟨0, _⟩ => exact dot6_lhs0 _ _
      | ⟨1, _⟩ => exact (dot_S5000x6_S6x64_S5000x64_1_0_0_1_n_n.lhsIdx_val_of_single rfl _ _).trans hk)
  have er : dot_S5000x6_S6x64_S5000x64_1_0_0_1_n_n.rhsIdx (ix2 p q)
      ((contrEquiv1 dot_S5000x6_S6x64_S5000x64_1_0_0_1_n_n 6 rfl rfl).symm k) = ix2 k q :=
    funext fun d => Fin.ext (by
      match d with
      | ⟨0, _⟩ => exact (dot_S5000x6_S6x64_S5000x64_1_0_0_1_n_n.rhsIdx_val_of_single rfl _ _).trans hk
      | ⟨1, _⟩ => exact dot6_rhs1 _ _)
  rw [el, er]

end Cert.KernelIdeal.NodeOut

end
-- ==== Proof.NodeOutPre.lean ====
/-
  A node's row before the normalisation, read off a block.

  For a block of 5000 rows x0 (features) and x1 (aggregated messages), matrices w2, w4 (64 × 64), w6 (6 × 64)
  and bias rows b3, b5, b7 (1 × 64), the body forms, at row p and column q,
      max( (Σ_k x0[p,k]·w2[k,q] + b3[0,q]) + (Σ_k x1[p,k]·w4[k,q] + b5[0,q])
           + (Σ_{k<6} x0[p,k]·w6[k,q] + b7[0,q]), 0 ) + x0[p,q].
  A change of float format is the identity on the extended reals, a cast to the same shape is the identity,
  a row broadcast down the block reads the row, and the zero word is 0.
-/
import proofs.«137422_j60773787238721_2_alg».proof.Proof.Gen.KernelIdeal.Skeleton
import proofs.«137422_j60773787238721_2_alg».proof.Proof.NodeOutDot
import proofs.«137422_j60773787238721_2_alg».proof.Proof.EdgeLayer
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.NodeOut

open Cert.KernelIdeal Idealize.ShloMosaic Idealize.ShloMosaic.ValueIdx

open Cert.KernelIdeal.Gen

/-- The block's row before the normalisation, as a function of the block's contents. -/
def preB (x0 x1 : S5000x64.Idx → EReal) (w2 w4 : S64x64.Idx → EReal) (w6 : S6x64.Idx → EReal)
    (b3 b5 b7 : S1x64.Idx → EReal) (p : Fin 5000) (q : Fin 64) : EReal :=
  max ((((∑ j : Fin 64, x0 (ix2 p j) * w2 (ix2 j q)) + b3 (ix2 0 q))
        + ((∑ j : Fin 64, x1 (ix2 p j) * w4 (ix2 j q)) + b5 (ix2 0 q)))
       + ((∑ j : Fin 6, x0 (ix2 p (EdgeLayer.lo j)) * w6 (ix2 j q)) + b7 (ix2 0 q))) 0
    + x0 (ix2 p q)

/-- A bias row broadcast down the block reads the row's entry in that column. -/
theorem rowBcast_apply (b : FVec Ideal S1x64 .f32) (hc : S1x64.ShapeCasts S1x64) (hb : S1x64.Broadcasts S5000x64)
    (p : Fin 5000) (q : Fin 64) :
    broadcastTo S5000x64 (shapeCast S1x64 b hc) hb (ix2 p q) = b (ix2 0 q) := by
  rw [shapeCast_self]
  exact broadcastTo_apply b hb (ix2 p q) (ix2 0 q) (fun a => by
    match a with
    | ⟨0, _⟩ => rfl
    | ⟨1, _⟩ => rfl)

/-- The first six columns cut out of the block. -/
theorem firstSix_apply (x : FVec Ideal S5000x64 .f32) (hs : S5000x64.Slices ![0, 0] S5000x6) (p : Fin 5000) (k : Fin 6) :
    extractStridedSlice S5000x6 ![0, 0] x hs (ix2 p k) = x (ix2 p (EdgeLayer.lo k)) :=
  extractStridedSlice_apply ![0, 0] x hs (ix2 p k) (ix2 p (EdgeLayer.lo k)) (fun a => by
    match a with
    | ⟨0, _⟩ => show p.val = 0 + p.val; omega
    | ⟨1, _⟩ => show k.val = 0 + k.val; omega)

/-- The body's first payload at row p, column q. -/
theorem pay2_apply (x0 x1 : Vec Ideal S5000x64 .f32) (w2 w4 : Vec Ideal S64x64 .f32) (w6 : Vec Ideal S6x64 .f32)
    (b3 b5 b7 : Vec Ideal S1x64 .f32) (p : Fin 5000) (q : Fin 64) :
    k2_pay2 (F := Ideal) x0 x1 w2 w4 w6 b3 b5 b7 (ix2 p q) = preB x0 x1 w2 w4 w6 b3 b5 b7 p q := by
  unfold k2_pay2 preB
  simp only [addf_apply, maximumf_apply, broadcast_apply]
  rw [dot64_apply, dot64_apply, dot6_apply, rowBcast_apply, rowBcast_apply, rowBcast_apply, shapeCast_self]
  simp only [truncf_apply, firstSix_apply]
  show max _ (Ideal.ofBits .f32 0x00000000#32) + _ = _
  rw [Ideal.ofBits_zero_f32]

end Cert.KernelIdeal.NodeOut

end
-- ==== Proof.LibColumn.lean ====
/-
  A column kept beside an array: the two layout steps of a row-wise reduction with its axis kept.

  A vector of length a regarded as an a × 1 column reads, at (i, u), the vector at i; an a × 1 column broadcast
  across b columns reads, at (p, c), the column at p. Both hold for every a and b (a = 1 and b = 1 included:
  the unit coordinate is then the only one there is). Indices are written with the literal-extent constructors
  ix1, ix2, so that the statements apply by unification to a term written the same way.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`, whatever the unit
    coordinate `u`. Every `a`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at `p`. Every `a` and `b`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.NodeOutNorm.lean ====
/-
  The normalisation of a row, read off a block.

  For a block y of 5000 rows of 64, a column mu holding each row's mean, and two rows g, b of 64, the body forms
  at row p and column q
      (y[p,q] − mu[p]) · rsqrt( (Σ_k (y[p,k] − mu[p])²) / 64 + ε ) · g[0,q] + b[0,q],
  and the column of means it is handed is (Σ_k y[p,k]) / 64. A sum along a row of the block is the finite sum
  over the row's 64 columns; a column kept beside the block and broadcast across it reads the column's entry.
-/
import proofs.«137422_j60773787238721_2_alg».proof.Proof.Gen.KernelIdeal.Skeleton
import proofs.«137422_j60773787238721_2_alg».proof.Proof.NodeOutPre
import proofs.«137422_j60773787238721_2_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.NodeOut

open Cert.KernelIdeal Idealize.ShloMosaic Idealize.ShloMosaic.ValueIdx

open Cert.KernelIdeal.Gen

/-- The sum along row p of a block of 5000 rows of 64: Σ_k src[p,k]. -/
theorem laneSum_apply (src : FVec Ideal S5000x64 .f32) (h : S5000x64.Reduces [1] S5000)
    (hφ : FTy.f32 = FTy.f32 ∨ FTy.f32 = FTy.bf16)
    (hacc : (0x00000000#32 : BitVec 32) = 0x00000000#32) (p : Fin 5000) :
    multiReduction .add [1] S5000 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext d; apply Fin.ext
  match d with
  | ⟨0, _⟩ => rfl
  | ⟨1, _⟩ => rfl

/-- The reciprocal square root of a vector, entry by entry. -/
theorem rsqrt_apply {s : Shape} (x : FVec Ideal s .f32) (i : s.Idx) : rsqrt x i = Ideal.rsqrt (x i) := rfl

/-- The column of row means the body hands on: at row p, the mean of the row before the normalisation. -/
theorem pay3_apply (x0 x1 : Vec Ideal S5000x64 .f32) (w2 w4 : Vec Ideal S64x64 .f32) (w6 : Vec Ideal S6x64 .f32)
    (b3 b5 b7 : Vec Ideal S1x64 .f32) (p : Fin 5000) (u : Fin 1) :
    k2_pay3 (F := Ideal) x0 x1 w2 w4 w6 b3 b5 b7 (ix2 p u)
      = EdgeLayer.mean (fun k => k2_pay2 (F := Ideal) x0 x1 w2 w4 w6 b3 b5 b7 (ix2 p k)) := by
  unfold k2_pay3
  simp only [divf_apply, broadcast_apply, LibColumn.shapeCast_a_a1_apply]
  rw [laneSum_apply]
  rfl

/-- The body's last payload at row p, column q, given that the column it is handed holds the row's mean. -/
theorem pay1_apply (y : FVec Ideal S5000x64 .f32) (mu : FVec Ideal S5000x1 .f32) (g b : Vec Ideal S1x64 .f32)
    (p : Fin 5000) (q : Fin 64) (hmu : mu (ix2 p 0) = EdgeLayer.mean (fun k => y (ix2 p k))) :
    k2_pay1 (F := Ideal) y mu g b (ix2 p q)
      = EdgeLayer.norm (fun k => y (ix2 p k)) q * g (ix2 0 q) + b (ix2 0 q) := by
  unfold k2_pay1
  simp only [addf_apply, mulf_apply, subf_apply, divf_apply, broadcast_apply, rsqrt_apply, rowBcast_apply,
    LibColumn.broadcastTo_a1_ab_apply, LibColumn.shapeCast_a_a1_apply]
  rw [laneSum_apply]
  simp only [mulf_apply, subf_apply, LibColumn.broadcastTo_a1_ab_apply]
  rw [hmu]
  rfl

end Cert.KernelIdeal.NodeOut

end
-- ==== Proof.NodeOutBlock.lean ====
/-
  What one grid point leaves of the output block, entry by entry.

  The body stores once, through the whole 5000 × 64 staging buffer, and loads each operand whole; so the buffer
  ends holding the stored value, which at row p and column q is the normalised row
      norm(pre[p, ·])[q] · g[0,q] + b[0,q]
  of the operands' blocks.
-/
import proofs.«137422_j60773787238721_2_alg».proof.Proof.Gen.KernelIdeal.Skeleton
import proofs.«137422_j60773787238721_2_alg».proof.Proof.Gen.KernelIdeal.Frame
import proofs.«137422_j60773787238721_2_alg».proof.Proof.NodeOutNorm
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.NodeOut

open Cert.KernelIdeal Idealize.ShloMosaic Idealize.ShloMosaic.ValueIdx

open Cert.KernelIdeal.Gen

/-- The zero offsets of a whole-buffer access, however they are spelt. -/
theorem zeroOffsets : (![0, 0] : Fin 2 → Nat) = fun _ => 0 := funext fun a => by fin_cases a <;> rfl

/-- The output block after the body, at row p and column q, from the ten operand blocks. -/
theorem out_apply (x0 x1 : Vec Ideal S5000x64 .f32) (x2 : Vec Ideal S64x64 .f32) (x3 : Vec Ideal S1x64 .f32)
    (x4 : Vec Ideal S64x64 .f32) (x5 : Vec Ideal S1x64 .f32) (x6 : Vec Ideal S6x64 .f32)
    (x7 x8 x9 : Vec Ideal S1x64 .f32) (p : Fin 5000) (q : Fin 64) :
    out2_10 (F := Ideal) x0 x1 x2 x3 x4 x5 x6 x7 x8 x9 (ix2 p q)
      = EdgeLayer.norm (preB x0 x1 x2 x4 x6 x3 x5 x7 p) q * x8 (ix2 0 q) + x9 (ix2 0 q) := by
  unfold out2_10
  rw [View.canon_unit_zero zeroOffsets]
  simp only [View.ld_unit_zero (S := S5000x64) zeroOffsets, View.ld_unit_zero (S := S64x64) zeroOffsets,
    View.ld_unit_zero (S := S6x64) zeroOffsets, View.ld_unit_zero (S := S1x64) zeroOffsets]
  refine (pay1_apply _ _ _ _ p q (pay3_apply x0 x1 x2 x4 x6 x3 x5 x7 p 0)).trans ?_
  have e : (fun k => k2_pay2 (F := Ideal) x0 x1 x2 x4 x6 x3 x5 x7 (ix2 p k)) = preB x0 x1 x2 x4 x6 x3 x5 x7 p :=
    funext fun k => pay2_apply x0 x1 x2 x4 x6 x3 x5 x7 p k
  rw [e]

end Cert.KernelIdeal.NodeOut

end
-- ==== Proof.NodeOutArray.lean ====
/-
  From the blocks the grid points write back to the whole per-node array.

  The last stage runs over 10 grid points; point t reads rows 5000·t … 5000·t + 4999 of the node features and of
  the aggregated messages, reads the matrices and the bias, scale and shift rows whole, and writes back rows
  5000·t … 5000·t + 4999 of the result. So what point t writes back is its block of ONE array, the layer's output
  as a function of the arrays the stage is handed; row r of that array lies in the block of point r / 5000, so the
  blocks cover it, and the array after the run is that function.
-/
import proofs.«137422_j60773787238721_2_alg».proof.Proof.Gen.KernelIdeal.Skeleton
import proofs.«137422_j60773787238721_2_alg».proof.Proof.NodeOutBlock
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.NodeOut

open Cert.KernelIdeal Cert.KernelIdeal.Gen Idealize.ShloMosaic Idealize.ShloMosaic.TcCoe Idealize.SL.Sem Idealize.ShloMosaic.ValueIdx
open Idealize.ShloMosaic.Pipeline (Dat)

set_option maxRecDepth 16384

variable (V : (c : Dev nD) → (b : Ref sig .tc) → Buf (Elt Ideal) ((c : Thread nD τ).loc b))

/-! ## The block index of each window at each of the ten points (decided over the grid) -/

theorem idx0 : ∀ t : Fin cfg2.N, win2_0.index t (0 : Fin 2) = t.val ∧ win2_0.index t (1 : Fin 2) = 0 :=
  (by decide +kernel : ∀ t : Fin grid2.N, _)
theorem idx1 : ∀ t : Fin cfg2.N, win2_1.index t (0 : Fin 2) = t.val ∧ win2_1.index t (1 : Fin 2) = 0 :=
  (by decide +kernel : ∀ t : Fin grid2.N, _)
theorem idx2 : ∀ t : Fin cfg2.N, win2_2.index t (0 : Fin 2) = 0 ∧ win2_2.index t (1 : Fin 2) = 0 :=
  (by decide +kernel : ∀ t : Fin grid2.N, _)
theorem idx3 : ∀ t : Fin cfg2.N, win2_3.index t (0 : Fin 2) = 0 ∧ win2_3.index t (1 : Fin 2) = 0 :=
  (by decide +kernel : ∀ t : Fin grid2.N, _)
theorem idx4 : ∀ t : Fin cfg2.N, win2_4.index t (0 : Fin 2) = 0 ∧ win2_4.index t (1 : Fin 2) = 0 :=
  (by decide +kernel : ∀ t : Fin grid2.N, _)
theorem idx5 : ∀ t : Fin cfg2.N, win2_5.index t (0 : Fin 2) = 0 ∧ win2_5.index t (1 : Fin 2) = 0 :=
  (by decide +kernel : ∀ t : Fin grid2.N, _)
theorem idx6 : ∀ t : Fin cfg2.N, win2_6.index t (0 : Fin 2) = 0 ∧ win2_6.index t (1 : Fin 2) = 0 :=
  (by decide +kernel : ∀ t : Fin grid2.N, _)
theorem idx7 : ∀ t : Fin cfg2.N, win2_7.index t (0 : Fin 2) = 0 ∧ win2_7.index t (1 : Fin 2) = 0 :=
  (by decide +kernel : ∀ t : Fin grid2.N, _)
theorem idx8 : ∀ t : Fin cfg2.N, win2_8.index t (0 : Fin 2) = 0 ∧ win2_8.index t (1 : Fin 2) = 0 :=
  (by decide +kernel : ∀ t : Fin grid2.N, _)
theorem idx9 : ∀ t : Fin cfg2.N, win2_9.index t (0 : Fin 2) = 0 ∧ win2_9.index t (1 : Fin 2) = 0 :=
  (by decide +kernel : ∀ t : Fin grid2.N, _)
theorem idx10 : ∀ t : Fin cfg2.N, win2_10.index t (0 : Fin 2) = t.val ∧ win2_10.index t (1 : Fin 2) = 0 :=
  (by decide +kernel : ∀ t : Fin grid2.N, _)

/-- Row p of the block of point t is row 5000·t + p of the array. -/
def rowOf (t : Fin cfg2.N) (p : Fin 5000) : Fin 50000 :=
  ⟨5000 * t.val + p.val, by have := t.isLt; have hN : cfg2.N = 10 := N_2; have := p.isLt; omega⟩

/-! ## Each operand's block, read where it lies in its array -/

/-- The block of the node features at point t: rows 5000·t onward. -/
theorem blk0_apply (c : Dev nD) (t : Fin cfg2.N) (p : Fin 5000) (k : Fin 64) :
    iblk2 V c 0 t (ix2 p k) = V c main_arg1 (ix2 (rowOf t p) k) := by
  obtain ⟨e0, e1⟩ := idx0 t
  show V c main_arg1 (((cfg2.win 0).blk t).view.emb (ix2 p k)) = V c main_arg1 _
  refine congrArg _ (funext fun a => Fin.ext ?_)
  match a with
  | ⟨0, _⟩ => show win2_0.index t (0 : Fin 2) * 5000 + 1 * p.val = 5000 * t.val + p.val; omega
  | ⟨1, _⟩ => show win2_0.index t (1 : Fin 2) * 64 + 1 * k.val = k.val; omega

/-- The block of the aggregated messages at point t: rows 5000·t onward. -/
theorem blk1_apply (c : Dev nD) (t : Fin cfg2.N) (p : Fin 5000) (k : Fin 64) :
    iblk2 V c 1 t (ix2 p k) = V c main_v89 (ix2 (rowOf t p) k) := by
  obtain ⟨e0, e1⟩ := idx1 t
  show V c main_v89 (((cfg2.win 1).blk t).view.emb (ix2 p k)) = V c main_v89 _
  refine congrArg _ (funext fun a => Fin.ext ?_)
  match a with
  | ⟨0, _⟩ => show win2_1.index t (0 : Fin 2) * 5000 + 1 * p.val = 5000 * t.val + p.val; omega
  | ⟨1, _⟩ => show win2_1.index t (1 : Fin 2) * 64 + 1 * k.val = k.val; omega

/-- The block of the first 64 × 64 matrix at point t: the whole array. -/
theorem blk2_apply (c : Dev nD) (t : Fin cfg2.N) (p : Fin 64) (k : Fin 64) :
    iblk2 V c 2 t (ix2 p k) = V c main_arg9 (ix2 p k) := by
  obtain ⟨e0, e1⟩ := idx2 t
  show V c main_arg9 (((cfg2.win 2).blk t).view.emb (ix2 p k)) = V c main_arg9 _
  refine congrArg _ (funext fun a => Fin.ext ?_)
  match a with
  | ⟨0, _⟩ => show win2_2.index t (0 : Fin 2) * 64 + 1 * p.val = p.val; omega
  | ⟨1, _⟩ => show win2_2.index t (1 : Fin 2) * 64 + 1 * k.val = k.val; omega

/-- The block of the first bias row at point t: the whole array. -/
theorem blk3_apply (c : Dev nD) (t : Fin cfg2.N) (p : Fin 1) (k : Fin 64) :
    iblk2 V c 3 t (ix2 p k) = V c main_v90 (ix2 p k) := by
  obtain ⟨e0, e1⟩ := idx3 t
  show V c main_v90 (((cfg2.win 3).blk t).view.emb (ix2 p k)) = V c main_v90 _
  refine congrArg _ (funext fun a => Fin.ext ?_)
  match a with
  | ⟨0, _⟩ => show win2_3.index t (0 : Fin 2) * 1 + 1 * p.val = p.val; omega
  | ⟨1, _⟩ => show win2_3.index t (1 : Fin 2) * 64 + 1 * k.val = k.val; omega

/-- The block of the second 64 × 64 matrix at point t: the whole array. -/
theorem blk4_apply (c : Dev nD) (t : Fin cfg2.N) (p : Fin 64) (k : Fin 64) :
    iblk2 V c 4 t (ix2 p k) = V c main_arg11 (ix2 p k) := by
  obtain ⟨e0, e1⟩ := idx4 t
  show V c main_arg11 (((cfg2.win 4).blk t).view.emb (ix2 p k)) = V c main_arg11 _
  refine congrArg _ (funext fun a => Fin.ext ?_)
  match a with
  | ⟨0, _⟩ => show win2_4.index t (0 : Fin 2) * 64 + 1 * p.val = p.val; omega
  | ⟨1, _⟩ => show win2_4.index t (1 : Fin 2) * 64 + 1 * k.val = k.val; omega

/-- The block of the second bias row at point t: the whole array. -/
theorem blk5_apply (c : Dev nD) (t : Fin cfg2.N) (p : Fin 1) (k : Fin 64) :
    iblk2 V c 5 t (ix2 p k) = V c main_v91 (ix2 p k) := by
  obtain ⟨e0, e1⟩ := idx5 t
  show V c main_v91 (((cfg2.win 5).blk t).view.emb (ix2 p k)) = V c main_v91 _
  refine congrArg _ (funext fun a => Fin.ext ?_)
  match a with
  | ⟨0, _⟩ => show win2_5.index t (0 : Fin 2) * 1 + 1 * p.val = p.val; omega
  | ⟨1, _⟩ => show win2_5.index t (1 : Fin 2) * 64 + 1 * k.val = k.val; omega

/-- The block of the 6 × 64 matrix at point t: the whole array. -/
theorem blk6_apply (c : Dev nD) (t : Fin cfg2.N) (p : Fin 6) (k : Fin 64) :
    iblk2 V c 6 t (ix2 p k) = V c main_arg13 (ix2 p k) := by
  obtain ⟨e0, e1⟩ := idx6 t
  show V c main_arg13 (((cfg2.win 6).blk t).view.emb (ix2 p k)) = V c main_arg13 _
  refine congrArg _ (funext fun a => Fin.ext ?_)
  match a with
  | ⟨0, _⟩ => show win2_6.index t (0 : Fin 2) * 6 + 1 * p.val = p.val; omega
  | ⟨1, _⟩ => show win2_6.index t (1 : Fin 2) * 64 + 1 * k.val = k.val; omega

/-- The block of the third bias row at point t: the whole array. -/
theorem blk7_apply (c : Dev nD) (t : Fin cfg2.N) (p : Fin 1) (k : Fin 64) :
    iblk2 V c 7 t (ix2 p k) = V c main_v92 (ix2 p k) := by
  obtain ⟨e0, e1⟩ := idx7 t
  show V c main_v92 (((cfg2.win 7).blk t).view.emb (ix2 p k)) = V c main_v92 _
  refine congrArg _ (funext fun a => Fin.ext ?_)
  match a with
  | ⟨0, _⟩ => show win2_7.index t (0 : Fin 2) * 1 + 1 * p.val = p.val; omega
  | ⟨1, _⟩ => show win2_7.index t (1 : Fin 2) * 64 + 1 * k.val = k.val; omega

/-- The block of the scale row at point t: the whole array. -/
theorem blk8_apply (c : Dev nD) (t : Fin cfg2.N) (p : Fin 1) (k : Fin 64) :
    iblk2 V c 8 t (ix2 p k) = V c main_v93 (ix2 p k) := by
  obtain ⟨e0, e1⟩ := idx8 t
  show V c main_v93 (((cfg2.win 8).blk t).view.emb (ix2 p k)) = V c main_v93 _
  refine congrArg _ (funext fun a => Fin.ext ?_)
  match a with
  | ⟨0, _⟩ => show win2_8.index t (0 : Fin 2) * 1 + 1 * p.val = p.val; omega
  | ⟨1, _⟩ => show win2_8.index t (1 : Fin 2) * 64 + 1 * k.val = k.val; omega

/-- The block of the shift row at point t: the whole array. -/
theorem blk9_apply (c : Dev nD) (t : Fin cfg2.N) (p : Fin 1) (k : Fin 64) :
    iblk2 V c 9 t (ix2 p k) = V c main_v94 (ix2 p k) := by
  obtain ⟨e0, e1⟩ := idx9 t
  show V c main_v94 (((cfg2.win 9).blk t).view.emb (ix2 p k)) = V c main_v94 _
  refine congrArg _ (funext fun a => Fin.ext ?_)
  match a with
  | ⟨0, _⟩ => show win2_9.index t (0 : Fin 2) * 1 + 1 * p.val = p.val; omega
  | ⟨1, _⟩ => show win2_9.index t (1 : Fin 2) * 64 + 1 * k.val = k.val; omega

/-- The row before the normalisation, formed from the blocks of point t at row p, is that of the arrays at row 5000·t + p. -/
theorem preB_blocks (c : Dev nD) (t : Fin cfg2.N) (p : Fin 5000) :
    preB (iblk2 V c 0 t) (iblk2 V c 1 t) (iblk2 V c 2 t) (iblk2 V c 4 t) (iblk2 V c 6 t) (iblk2 V c 3 t) (iblk2 V c 5 t)
        (iblk2 V c 7 t) p
      = EdgeLayer.pre (V c main_arg1) (V c main_v89) (V c main_arg9) (V c main_v90) (V c main_arg11) (V c main_v91) (V c main_arg13) (V c main_v92) (rowOf t p) := by
  funext q
  unfold preB EdgeLayer.pre
  simp only [blk0_apply, blk1_apply, blk2_apply, blk3_apply, blk4_apply, blk5_apply, blk6_apply, blk7_apply]

/-! ## What point t writes back -/

/-- Point t writes back its block of the layer's output, as a function of the arrays the stage is handed. -/
theorem flushed_eq (c : Dev nD) (t : Fin cfg2.N) :
    (dat2 V c).flushed 10 t = ((cfg2.win 10).blk t).view.read (Elt Ideal)
      (EdgeLayer.nodeOut (V c main_arg1) (V c main_v89) (V c main_arg9) (V c main_v90) (V c main_arg11) (V c main_v91) (V c main_arg13) (V c main_v92) (V c main_v93) (V c main_v94)) := by
  show (cfg2.win 10).cut (grid2.coords t) ((dat2 V c).after 10 t) = _
  rw [after2_10]
  funext j
  obtain ⟨p, q, rfl⟩ : ∃ (p : Fin 5000) (q : Fin 64), j = ix2 p q := ⟨j 0, j 1, eq_ix2 j⟩
  have hemb : ((cfg2.win 10).blk t).view.emb (ix2 p q) = ix2 (rowOf t p) q := by
    obtain ⟨e0, e1⟩ := idx10 t
    funext a; apply Fin.ext
    match a with
    | ⟨0, _⟩ => show win2_10.index t (0 : Fin 2) * 5000 + 1 * p.val = 5000 * t.val + p.val; omega
    | ⟨1, _⟩ => show win2_10.index t (1 : Fin 2) * 64 + 1 * q.val = q.val; omega
  show out2_10 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (ix2 p q)
    = EdgeLayer.nodeOut (V c main_arg1) (V c main_v89) (V c main_arg9) (V c main_v90) (V c main_arg11) (V c main_v91) (V c main_arg13) (V c main_v92) (V c main_v93) (V c main_v94)
        (((cfg2.win 10).blk t).view.emb (ix2 p q))
  rw [hemb]
  refine (out_apply _ _ _ _ _ _ _ _ _ _ p q).trans ?_
  rw [preB_blocks, blk8_apply, blk9_apply]
  rfl

/-! ## The blocks cover the array -/

/-- An index of the array is in point t's block iff each coordinate is in the block's range on its axis. -/
theorem mem_blk (t : Fin cfg2.N) (i : S50000x64.Idx) :
    i ∈ ((cfg2.win 10).blk t).view.set ↔ ∀ a : Fin 2, win2_10.index t a * S5000x64.size a ≤ (i a).val
      ∧ (i a).val < win2_10.index t a * S5000x64.size a + S5000x64.size a := by
  show i ∈ ((View.whole main_v95).slice (win2_10.rect t)).set ↔ _
  rw [View.set_slice_whole, Rect.mem_set_unit]
  exact Iff.rfl

/-- Row r of the array lies in the block of point r / 5000, and every point writes back. -/
theorem cover (i : S50000x64.Idx) :
    ∃ t : Fin cfg2.N, (cfg2.win 10).flush t = true ∧ i ∈ ((cfg2.win 10).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by omega⟩, rfl⟩
  obtain ⟨e0, e1⟩ := idx10 t
  refine ⟨t, flush2_10 t, ?_⟩
  rw [mem_blk]
  intro a
  match a with
  | ⟨0, _⟩ =>
    show win2_10.index t (0 : Fin 2) * 5000 ≤ (i 0).val ∧ (i 0).val < win2_10.index t (0 : Fin 2) * 5000 + 5000
    omega
  | ⟨1, _⟩ =>
    show win2_10.index t (1 : Fin 2) * 64 ≤ (i 1).val ∧ (i 1).val < win2_10.index t (1 : Fin 2) * 64 + 64
    omega

/-! ## The array after the run -/

/-- The per-node array after the last stage's run is the layer's output as a function of the arrays the stage is
    handed: the node features, the aggregated messages, the three matrices with their bias rows, the scale and the
    shift. -/
theorem final (c : Dev nD) :
    (dat2 (F := Ideal) V c).arrAt 10 cfg2.N = EdgeLayer.nodeOut (V c main_arg1) (V c main_v89) (V c main_arg9) (V c main_v90) (V c main_arg11) (V c main_v91) (V c main_arg13) (V c main_v92) (V c main_v93) (V c main_v94) :=
  (dat2 V c).arrAt_eq_of_cover 10 _ (fun t _ => flushed_eq V c t) (fun i => cover i)

end Cert.KernelIdeal.NodeOut

end
-- ==== Proof.RefNodeOutPre.lean ====
/-
  The reference's per-node row before the normalisation, entry by entry.

  The reference forms, for node r and column q,
      max( (Σ_k h[r,k]·Wself[k,q] + bself[q]) + (Σ_k agg[r,k]·WA[k,q] + bA[q])
           + (Σ_{k<6} h[r,k]·Wstr[k,q] + bstr[q]), 0 ) + h[r,q],
  where agg is the array of aggregated messages (left as it is: one [N,64] array). The bias vectors enter as
  rows broadcast down the array, the six leading columns as a slice, and the clip as a maximum against a zero array.
-/
import proofs.«137422_j60773787238721_2_alg».proof.Proof.Gen.ReferenceIdeal.Read
import proofs.«137422_j60773787238721_2_alg».proof.Proof.EdgeLayer

noncomputable section

open scoped BigOperators

namespace Cert.ReferenceIdeal.NodeOut

open Cert.ReferenceIdeal Cert.ReferenceIdeal.Read Idealize.ShloMosaic Idealize.ShloMosaic.ValueIdx

variable (x0 : (⟨S2x800000, .i32⟩ : BufTy).Contents (Elt Ideal)) (x1 : (⟨S50000x64, .f32⟩ : BufTy).Contents (Elt Ideal))
  (x2 x3 : (⟨S64x64, .f32⟩ : BufTy).Contents (Elt Ideal)) (x4 : (⟨S64, .f32⟩ : BufTy).Contents (Elt Ideal))
  (x5 x6 : (⟨S64x64, .f32⟩ : BufTy).Contents (Elt Ideal)) (x7 : (⟨S64x1, .f32⟩ : BufTy).Contents (Elt Ideal))
  (x8 : (⟨S1, .f32⟩ : BufTy).Contents (Elt Ideal)) (x9 : (⟨S64x64, .f32⟩ : BufTy).Contents (Elt Ideal))
  (x10 : (⟨S64, .f32⟩ : BufTy).Contents (Elt Ideal)) (x11 : (⟨S64x64, .f32⟩ : BufTy).Contents (Elt Ideal))
  (x12 : (⟨S64, .f32⟩ : BufTy).Contents (Elt Ideal)) (x13 : (⟨S6x64, .f32⟩ : BufTy).Contents (Elt Ideal))
  (x14 x15 x16 : (⟨S64, .f32⟩ : BufTy).Contents (Elt Ideal))

/-! ## Where each operation reads its operands, at node r and column q -/

theorem l118 (r : Fin 50000) (q k : Fin 64) : lidx_main_v118 (ix2 r q) k = ix2 r k :=
  funext fun a => Fin.ext (by match a with | ⟨0, _⟩ => rfl | ⟨1, _⟩ => rfl)
theorem r118 (r : Fin 50000) (q k : Fin 64) : ridx_main_v118 (ix2 r q) k = ix2 k q :=
  funext fun a => Fin.ext (by match a with | ⟨0, _⟩ => rfl | ⟨1, _⟩ => rfl)
theorem l122 (r : Fin 50000) (q k : Fin 64) : lidx_main_v122 (ix2 r q) k = ix2 r k :=
  funext fun a => Fin.ext (by match a with | ⟨0, _⟩ => rfl | ⟨1, _⟩ => rfl)
theorem r122 (r : Fin 50000) (q k : Fin 64) : ridx_main_v122 (ix2 r q) k = ix2 k q :=
  funext fun a => Fin.ext (by match a with | ⟨0, _⟩ => rfl | ⟨1, _⟩ => rfl)
theorem l127 (r : Fin 50000) (q : Fin 64) (k : Fin 6) : idx_main_v4 (lidx_main_v127 (ix2 r q) k) = ix2 r (EdgeLayer.lo k) :=
  funext fun a => Fin.ext (by match a with | ⟨0, _⟩ => rfl | ⟨1, _⟩ => rfl)
theorem r127 (r : Fin 50000) (q : Fin 64) (k : Fin 6) : ridx_main_v127 (ix2 r q) k = ix2 k q :=
  funext fun a => Fin.ext (by match a with | ⟨0, _⟩ => rfl | ⟨1, _⟩ => rfl)
theorem b120 (r : Fin 50000) (q : Fin 64) : idx_main_v119 (idx_main_v120 (ix2 r q)) = ix1 q :=
  funext fun a => Fin.ext (by match a with | ⟨0, _⟩ => rfl)
theorem b124 (r : Fin 50000) (q : Fin 64) : idx_main_v123 (idx_main_v124 (ix2 r q)) = ix1 q :=
  funext fun a => Fin.ext (by match a with | ⟨0, _⟩ => rfl)
theorem b129 (r : Fin 50000) (q : Fin 64) : idx_main_v128 (idx_main_v129 (ix2 r q)) = ix1 q :=
  funext fun a => Fin.ext (by match a with | ⟨0, _⟩ => rfl)

/-! ## The row -/

/-- The reference's value before the normalisation at node r, column q. -/
theorem pre_eq (r : Fin 50000) (q : Fin 64) :
    val_main_v133 (F := Ideal) x0 x1 x2 x3 x4 x5 x6 x7 x8 x9 x10 x11 x12 x13 x14 (ix2 r q)
      = EdgeLayer.pre x1 (val_main_v117 (F := Ideal) x0 x1 x2 x3 x4 x5 x6 x7 x8) x9 (EdgeLayer.row x10) x11 (EdgeLayer.row x12) x13
          (EdgeLayer.row x14) r q := by
  rw [val_main_v133_apply, val_main_v132_apply, val_main_v131_apply, val_main_v126_apply, val_main_v121_apply,
    val_main_v118_apply, val_main_v120_apply, val_main_v119_apply, val_main_v125_apply, val_main_v122_apply,
    val_main_v124_apply, val_main_v123_apply, val_main_v130_apply, val_main_v127_apply, val_main_v129_apply,
    val_main_v128_apply, val_main_call0_v0_apply, val_main_call0_cst_apply]
  simp only [val_main_v4_apply, l118, r118, l122, r122, l127, r127, b120, b124, b129, Ideal.addf_def,
    Ideal.maximumf_def, Ideal.ofBits_def, Ideal.ofBits_zero_f32]
  rfl

end Cert.ReferenceIdeal.NodeOut

end
-- ==== Proof.RefNodeOutNorm.lean ====
/-
  The reference's normalisation of a node's row, and the reference's result as the layer's output.

  With x the row of node r before the normalisation, the reference takes mean x = (Σ_k x[k]) / 64, the variance
  (Σ_k (x[k] − mean x)²) / 64, and forms ((x[q] − mean x) / √(var x + ε)) · g[q] + b[q]. The variance plus ε is
  positive, and for a positive v (real or +∞) dividing by √v is multiplying by the reciprocal square root of v
  (on the extended reals, for every numerator); so the result is the row scaled by rsqrt(var x + ε), as the layer's
  output is written.
-/
import proofs.«137422_j60773787238721_2_alg».proof.Proof.Gen.ReferenceIdeal.Read
import proofs.«137422_j60773787238721_2_alg».proof.Proof.EdgeLayer
import proofs.«137422_j60773787238721_2_alg».proof.Proof.RefNodeOutPre

noncomputable section

open scoped BigOperators

namespace Cert.ReferenceIdeal.NodeOut

open Cert.ReferenceIdeal Cert.ReferenceIdeal.Read Idealize.ShloMosaic Idealize.ShloMosaic.ValueIdx

variable (x0 : (⟨S2x800000, .i32⟩ : BufTy).Contents (Elt Ideal)) (x1 : (⟨S50000x64, .f32⟩ : BufTy).Contents (Elt Ideal))
  (x2 x3 : (⟨S64x64, .f32⟩ : BufTy).Contents (Elt Ideal)) (x4 : (⟨S64, .f32⟩ : BufTy).Contents (Elt Ideal))
  (x5 x6 : (⟨S64x64, .f32⟩ : BufTy).Contents (Elt Ideal)) (x7 : (⟨S64x1, .f32⟩ : BufTy).Contents (Elt Ideal))
  (x8 : (⟨S1, .f32⟩ : BufTy).Contents (Elt Ideal)) (x9 : (⟨S64x64, .f32⟩ : BufTy).Contents (Elt Ideal))
  (x10 : (⟨S64, .f32⟩ : BufTy).Contents (Elt Ideal)) (x11 : (⟨S64x64, .f32⟩ : BufTy).Contents (Elt Ideal))
  (x12 : (⟨S64, .f32⟩ : BufTy).Contents (Elt Ideal)) (x13 : (⟨S6x64, .f32⟩ : BufTy).Contents (Elt Ideal))
  (x14 x15 x16 : (⟨S64, .f32⟩ : BufTy).Contents (Elt Ideal))

/-! ## Where each operation reads its operands -/

theorem i134 (r : Fin 50000) (u : Fin 1) (k : Fin 64) : idx_main_v134 (idx_main_v135 (ix2 r u)) k = ix2 r k :=
  funext fun a => Fin.ext (by match a with | ⟨0, _⟩ => rfl | ⟨1, _⟩ => rfl)
theorem i141 (r : Fin 50000) (u : Fin 1) (k : Fin 64) : idx_main_v141 (idx_main_v142 (ix2 r u)) k = ix2 r k :=
  funext fun a => Fin.ext (by match a with | ⟨0, _⟩ => rfl | ⟨1, _⟩ => rfl)
theorem i138 (r : Fin 50000) (q : Fin 64) : idx_main_v138 (ix2 r q) = ix2 r (0 : Fin 1) :=
  funext fun a => Fin.ext (by match a with | ⟨0, _⟩ => rfl | ⟨1, _⟩ => rfl)
theorem i145 (r : Fin 50000) (q : Fin 64) : idx_main_v145 (ix2 r q) = ix2 r (0 : Fin 1) :=
  funext fun a => Fin.ext (by match a with | ⟨0, _⟩ => rfl | ⟨1, _⟩ => rfl)
theorem i150 (r : Fin 50000) (q : Fin 64) : idx_main_v150 (ix2 r q) = ix2 r (0 : Fin 1) :=
  funext fun a => Fin.ext (by match a with | ⟨0, _⟩ => rfl | ⟨1, _⟩ => rfl)
theorem b153 (r : Fin 50000) (q : Fin 64) : idx_main_v152 (idx_main_v153 (ix2 r q)) = ix1 q :=
  funext fun a => Fin.ext (by match a with | ⟨0, _⟩ => rfl)
theorem b156 (r : Fin 50000) (q : Fin 64) : idx_main_v155 (idx_main_v156 (ix2 r q)) = ix1 q :=
  funext fun a => Fin.ext (by match a with | ⟨0, _⟩ => rfl)

/-! ## Mean, variance, and the normalised row -/

/-- The column of row means: at node r, the mean of the row before the normalisation. -/
theorem mean_eq (r : Fin 50000) (u : Fin 1) :
    val_main_v137 (F := Ideal) x0 x1 x2 x3 x4 x5 x6 x7 x8 x9 x10 x11 x12 x13 x14 (ix2 r u)
      = EdgeLayer.mean (fun k => val_main_v133 (F := Ideal) x0 x1 x2 x3 x4 x5 x6 x7 x8 x9 x10 x11 x12 x13 x14 (ix2 r k)) := by
  rw [val_main_v137_apply, val_main_v135_apply, val_main_v134_apply, val_main_v136_apply, val_main_cst_28_apply,
    val_main_cst_27_apply]
  simp only [i134, Ideal.hostDivf_def, Ideal.ofBits_def, Ideal.ofBits_zero_f32, zero_add]
  rfl

/-- The column of row variances. -/
theorem var_eq (r : Fin 50000) (u : Fin 1) :
    val_main_v144 (F := Ideal) x0 x1 x2 x3 x4 x5 x6 x7 x8 x9 x10 x11 x12 x13 x14 (ix2 r u)
      = EdgeLayer.var (fun k => val_main_v133 (F := Ideal) x0 x1 x2 x3 x4 x5 x6 x7 x8 x9 x10 x11 x12 x13 x14 (ix2 r k)) := by
  rw [val_main_v144_apply, val_main_v142_apply, val_main_v141_apply, val_main_v143_apply, val_main_cst_30_apply,
    val_main_cst_29_apply]
  simp only [i141, val_main_v140_apply, val_main_v139_apply, val_main_v138_apply, i138, mean_eq, Ideal.hostDivf_def,
    Ideal.subf_def, Ideal.mulf_def, Ideal.ofBits_def, Ideal.ofBits_zero_f32, zero_add]
  rfl

/-- The reference's result at node r, column q: the row centred and divided by the square root, scaled and shifted. -/
theorem normDiv_eq (r : Fin 50000) (q : Fin 64) :
    val_main_v157 (F := Ideal) x0 x1 x2 x3 x4 x5 x6 x7 x8 x9 x10 x11 x12 x13 x14 x15 x16 (ix2 r q)
      = EdgeLayer.normDiv (fun k => val_main_v133 (F := Ideal) x0 x1 x2 x3 x4 x5 x6 x7 x8 x9 x10 x11 x12 x13 x14 (ix2 r k)) q * x15 (ix1 q) + x16 (ix1 q) := by
  rw [val_main_v157_apply, val_main_v154_apply, val_main_v151_apply, val_main_v146_apply, val_main_v145_apply,
    val_main_v150_apply, val_main_v149_apply, val_main_v148_apply, val_main_v147_apply, val_main_cst_31_apply,
    val_main_v153_apply, val_main_v152_apply, val_main_v156_apply, val_main_v155_apply]
  simp only [i145, i150, b153, b156, mean_eq, var_eq, Ideal.addf_def, Ideal.mulf_def, Ideal.subf_def,
    Ideal.hostDivf_def, Ideal.hostUnary_sqrt_def, Ideal.ofBits_def]
  rfl

/-! ## The reference's result is the layer's output -/

/-- The reference's result, as a function on node and column, is the layer's output of the node features, the
    aggregated messages, the three matrices with their biases as rows, and the scale and shift as rows. -/
theorem out_eq :
    val_main_v157 (F := Ideal) x0 x1 x2 x3 x4 x5 x6 x7 x8 x9 x10 x11 x12 x13 x14 x15 x16
      = EdgeLayer.nodeOut x1 (val_main_v117 (F := Ideal) x0 x1 x2 x3 x4 x5 x6 x7 x8) x9 (EdgeLayer.row x10) x11 (EdgeLayer.row x12) x13
          (EdgeLayer.row x14) (EdgeLayer.row x15) (EdgeLayer.row x16) := by
  funext i
  obtain ⟨r, q, rfl⟩ : ∃ (r : Fin 50000) (q : Fin 64), i = ix2 r q := ⟨i 0, i 1, eq_ix2 i⟩
  rw [normDiv_eq, EdgeLayer.normDiv_eq_norm]
  have e : (fun k => val_main_v133 (F := Ideal) x0 x1 x2 x3 x4 x5 x6 x7 x8 x9 x10 x11 x12 x13 x14 (ix2 r k))
      = EdgeLayer.pre x1 (val_main_v117 (F := Ideal) x0 x1 x2 x3 x4 x5 x6 x7 x8) x9 (EdgeLayer.row x10) x11 (EdgeLayer.row x12) x13
          (EdgeLayer.row x14) r :=
    funext fun k => pre_eq x0 x1 x2 x3 x4 x5 x6 x7 x8 x9 x10 x11 x12 x13 x14 r k
  rw [e]
  rfl

end Cert.ReferenceIdeal.NodeOut

end
-- ==== Proof.Result.lean ====
/-
  The result buffer. The last stretch aggregates the reference's messages into the reference's segment sum and
  lays each bias vector as a row; the weights and the node features the per-node region reads are still the launch
  arrays (no segment writes an argument); the region's closed form at those arrays is the layer's output, which the
  reference's own last operations compute from the same arrays — with a division by the square root where the
  kernel multiplies by the reciprocal square root, the same number because the variance plus ε is positive.
-/
import proofs.«137422_j60773787238721_2_alg».proof.Proof.AfterMessages
import proofs.«137422_j60773787238721_2_alg».proof.Proof.NodeOutArray
import proofs.«137422_j60773787238721_2_alg».proof.Proof.RefNodeOutNorm

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read (val_main_v117 val_main_v157)

variable (m : (ℓ : Loc nD τ sig) → Buf (Elt Ideal) ℓ) (ρ : Dev nD → PrngReg) (c : Dev nD)

/-- The aggregated messages are the reference's. -/
theorem matt : W5 m ρ c (Proc.devRef .tc main_v89) = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  Stretches.matt_of _ _ _ _ _ _ _ _ _ (W4 m ρ c) (AfterMessages.tgt m ρ c) (AfterMessages.msg m ρ c)

/-- What the per-node region reads of the arguments is as launched: an input array of the region ends as the
    region found it, and ends as launched. -/
theorem arg1_5 : W5 m ρ c (Proc.devRef .tc main_arg1) = m ((c : Thread nD τ).loc main_arg1) :=
  ((W6_arr m ρ c 0).trans (((dat2 (V5 m ρ) c).arrAt_in 0 rfl _).trans (A_eq2 (V5 m ρ) c 0))).symm.trans (W6_main_arg1 m ρ c)
theorem arg9_5 : W5 m ρ c (Proc.devRef .tc main_arg9) = m ((c : Thread nD τ).loc main_arg9) :=
  ((W6_arr m ρ c 2).trans (((dat2 (V5 m ρ) c).arrAt_in 2 rfl _).trans (A_eq2 (V5 m ρ) c 2))).symm.trans (W6_main_arg9 m ρ c)
theorem arg11_5 : W5 m ρ c (Proc.devRef .tc main_arg11) = m ((c : Thread nD τ).loc main_arg11) :=
  ((W6_arr m ρ c 4).trans (((dat2 (V5 m ρ) c).arrAt_in 4 rfl _).trans (A_eq2 (V5 m ρ) c 4))).symm.trans (W6_main_arg11 m ρ c)
theorem arg13_5 : W5 m ρ c (Proc.devRef .tc main_arg13) = m ((c : Thread nD τ).loc main_arg13) :=
  ((W6_arr m ρ c 6).trans (((dat2 (V5 m ρ) c).arrAt_in 6 rfl _).trans (A_eq2 (V5 m ρ) c 6))).symm.trans (W6_main_arg13 m ρ c)

/-- A bias vector is written by no segment: before the last stretch it is as at the end, as launched. -/
theorem arg10_4 : W4 m ρ c (Proc.devRef .tc main_arg10) = m ((c : Thread nD τ).loc main_arg10) :=
  (Stretches.last_arg10 (W4 m ρ c)).symm.trans ((W6_of_ne m ρ c main_arg10 (by decide)).symm.trans (W6_main_arg10 m ρ c))
theorem arg12_4 : W4 m ρ c (Proc.devRef .tc main_arg12) = m ((c : Thread nD τ).loc main_arg12) :=
  (Stretches.last_arg12 (W4 m ρ c)).symm.trans ((W6_of_ne m ρ c main_arg12 (by decide)).symm.trans (W6_main_arg12 m ρ c))
theorem arg14_4 : W4 m ρ c (Proc.devRef .tc main_arg14) = m ((c : Thread nD τ).loc main_arg14) :=
  (Stretches.last_arg14 (W4 m ρ c)).symm.trans ((W6_of_ne m ρ c main_arg14 (by decide)).symm.trans (W6_main_arg14 m ρ c))
theorem arg15_4 : W4 m ρ c (Proc.devRef .tc main_arg15) = m ((c : Thread nD τ).loc main_arg15) :=
  (Stretches.last_arg15 (W4 m ρ c)).symm.trans ((W6_of_ne m ρ c main_arg15 (by decide)).symm.trans (W6_main_arg15 m ρ c))
theorem arg16_4 : W4 m ρ c (Proc.devRef .tc main_arg16) = m ((c : Thread nD τ).loc main_arg16) :=
  (Stretches.last_arg16 (W4 m ρ c)).symm.trans ((W6_of_ne m ρ c main_arg16 (by decide)).symm.trans (W6_main_arg16 m ρ c))

/-- The bias vectors as rows. -/
theorem row90 : W5 m ρ c (Proc.devRef .tc main_v90) = EdgeLayer.row (m ((c : Thread nD τ).loc main_arg10)) :=
  (Stretches.row90_of (W4 m ρ c)).trans
    ((congrArg (fun v => shapeCast S1x64 v shapeCasts_S64_S1x64) (arg10_4 m ρ c)).trans (Relayout.row_cast _))
theorem row91 : W5 m ρ c (Proc.devRef .tc main_v91) = EdgeLayer.row (m ((c : Thread nD τ).loc main_arg12)) :=
  (Stretches.row91_of (W4 m ρ c)).trans
    ((congrArg (fun v => shapeCast S1x64 v shapeCasts_S64_S1x64) (arg12_4 m ρ c)).trans (Relayout.row_cast _))
theorem row92 : W5 m ρ c (Proc.devRef .tc main_v92) = EdgeLayer.row (m ((c : Thread nD τ).loc main_arg14)) :=
  (Stretches.row92_of (W4 m ρ c)).trans
    ((congrArg (fun v => shapeCast S1x64 v shapeCasts_S64_S1x64) (arg14_4 m ρ c)).trans (Relayout.row_cast _))
theorem row93 : W5 m ρ c (Proc.devRef .tc main_v93) = EdgeLayer.row (m ((c : Thread nD τ).loc main_arg15)) :=
  (Stretches.row93_of (W4 m ρ c)).trans
    ((congrArg (fun v => shapeCast S1x64 v shapeCasts_S64_S1x64) (arg15_4 m ρ c)).trans (Relayout.row_cast _))
theorem row94 : W5 m ρ c (Proc.devRef .tc main_v94) = EdgeLayer.row (m ((c : Thread nD τ).loc main_arg16)) :=
  (Stretches.row94_of (W4 m ρ c)).trans
    ((congrArg (fun v => shapeCast S1x64 v shapeCasts_S64_S1x64) (arg16_4 m ρ c)).trans (Relayout.row_cast _))

/-- The layer's output depends only on its ten arrays. -/
theorem nodeOut_congr {h h' g g' : EdgeLayer.N64.Idx → EReal} {w1 w1' w2 w2' : EdgeLayer.M64.Idx → EReal}
    {w3 w3' : EdgeLayer.M6.Idx → EReal} {b1 b1' b2 b2' b3 b3' b4 b4' b5 b5' : EdgeLayer.R64.Idx → EReal}
    (e1 : h = h') (e2 : g = g') (e3 : w1 = w1') (e4 : b1 = b1') (e5 : w2 = w2') (e6 : b2 = b2') (e7 : w3 = w3')
    (e8 : b3 = b3') (e9 : b4 = b4') (e10 : b5 = b5') :
    EdgeLayer.nodeOut h g w1 b1 w2 b2 w3 b3 b4 b5 = EdgeLayer.nodeOut h' g' w1' b1' w2' b2' w3' b3' b4' b5' := by
  subst e1 e2 e3 e4 e5 e6 e7 e8 e9 e10; rfl

/-- THE RESULT: the last boundary's contents at the result buffer are the reference's result term of the launch
    arrays. -/
theorem result : W6 m ρ c (Proc.devRef .tc main_v95) = val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W6_arr m ρ c 10).trans ((NodeOut.final (V5 m ρ) c).trans ?_)
  refine (nodeOut_congr (arg1_5 m ρ c) (matt m ρ c) (arg9_5 m ρ c) (row90 m ρ c) (arg11_5 m ρ c) (row91 m ρ c)
    (arg13_5 m ρ c) (row92 m ρ c) (row93 m ρ c) (row94 m ρ c)).trans ?_
  exact (Cert.ReferenceIdeal.NodeOut.out_eq _ _ _ _ _ _ _ _ _ _ _ _ _ _ _ _ _).symm

end Cert.KernelIdeal.Result

end
-- ==== Proof.lean ====
/-
  The certificate of a graph layer over 800000 edges and 50000 nodes of 64 features: three dense stages run as
  grid kernels (per-edge score / pairing / defence scalars; per-edge messages; per-node affine terms, clipping,
  residual and row normalisation) among host gathers, segment sums and pointwise operations, against a plain
  reference of the same layer.

  Frames: the two kernel programs' frames are the generated launch proofs; the reference's is its generated run with
  the result dropped. The idealization rewrote nothing, so it is sanctioned trivially.

  Values, at the extended reals. The kernel program's run ends with the result buffer at the last region's output
  array (`KernelRun`). Read back through the six segments (`HostEntry`, `AfterPrescan`, `AfterMessages`,
  `Result`): each region's array is one index-by-index function of the arrays it found (`PrescanArray`,
  `Messages`, `NodeOutArray` — a matrix product into a zero accumulator is the plain sum over the contracted
  index, a lane sum the sum of the row, blocks of 4000 or 5000 rows tile the array), the reference computes the
  same functions (`RefScalars`, `RefMessages`, `RefNodeOut`), and the host operations between the regions — the
  softmax over incoming edges, the segment sums, the logarithm and the logistic — are the same operations applied
  to equal arrays in both programs, so they are carried along unopened (`Stretches`). Two laws join the sides:
  a product of three factors re-associates (the message's coefficient), and dividing by √v is multiplying by
  rsqrt v for v > 0, which the variance plus ε always is (`EdgeLayer`). No finiteness of the inputs is used.
-/
import proofs.«137422_j60773787238721_2_alg».proof.Defs
import proofs.«137422_j60773787238721_2_alg».proof.Proof.Gen.Kernel
import proofs.«137422_j60773787238721_2_alg».proof.Proof.Gen.Kernel.Frame
import proofs.«137422_j60773787238721_2_alg».proof.Proof.Gen.KernelIdeal
import proofs.«137422_j60773787238721_2_alg».proof.Proof.Gen.KernelIdeal.Frame
import proofs.«137422_j60773787238721_2_alg».proof.Proof.Gen.ReferenceIdeal
import proofs.«137422_j60773787238721_2_alg».proof.Proof.Gen.Pre_finite_inputs
import proofs.«137422_j60773787238721_2_alg».proof.Proof.Gen.ReferenceIdeal.Run
import proofs.«137422_j60773787238721_2_alg».proof.Proof.Gen.ReferenceIdeal.Read
import proofs.«137422_j60773787238721_2_alg».proof.Proof.KernelRun
import proofs.«137422_j60773787238721_2_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the reference's result term of the kernel
    program's launch arrays. -/
theorem algebraic : Cert.algebraic_KernelIdeal_ReferenceIdeal := by
  intro m ρ m' ρ' _ hagree
  refine ⟨fun c => Cert.ReferenceIdeal.Read.val_main_v157 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Result.result m ρ c), (h c).2⟩)
      (Cert.KernelIdeal.Run.run_main (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15, e16⟩ := hagree c
    rw [(h c).1, Cert.ReferenceIdeal.Read.val_main_v157_eq, e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
